-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v150)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v150) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S8x64x64 : Shape := ⟨3, ![8, 64, 64]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S8x64x64 : S_.BroadcastsInDim S8x64x64 (![] : Fin 0 → Fin S8x64x64.rank)
  reducesTo_S8x64x64_S_d0_1_2 : S8x64x64.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : IVec S2x1600000 32) (main_arg2 : IVec S1600000 32) (main_arg3 : FVec F S8x64x64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S8x64x64 .f32 := Host.absf main_arg3
  let main_cst_0 : FVec F S_ .f32 := constant S_ .f32 0x7F800000#32
  let main_v5 : FVec F S8x64x64 .f32 := broadcastInDim S8x64x64 ![] bcast_S_S8x64x64 main_cst_0
  let main_v6 : IVec S8x64x64 1 := cmpf .olt main_v4 main_v5
  let main_c_1 : IVec S_ 1 := constantI S_ 1 1#1
  let main_v7 : IVec S_ 1 := (fun x v => Host.reduce IntOp.andi x v reducesTo_S8x64x64_S_d0_1_2 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S8x64x64 : Shape := ⟨3, ![8, 64, 64]⟩
abbrev S64x64 : Shape := ⟨2, ![64, 64]⟩
abbrev S64 : Shape := ⟨1, ![64]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x512 : Shape := ⟨2, ![100000, 512]⟩
abbrev S512x64 : Shape := ⟨2, ![512, 64]⟩
abbrev S1x64 : Shape := ⟨2, ![1, 64]⟩
abbrev S4000x64 : Shape := ⟨2, ![4000, 64]⟩
abbrev S4000x512 : Shape := ⟨2, ![4000, 512]⟩

abbrev nBuf : Space → Nat
  | .hbm => 191
  | .vmem => 9
  | .smem => 0
  | _ => 0

abbrev hbmTy0_0 (i : Nat) : BufTy := match i % 128 with
  | 0 => ⟨S100000x64, .f32⟩
  | 1 => ⟨S2x1600000, .i32⟩
  | 2 => ⟨S1600000, .i32⟩
  | 3 => ⟨S8x64x64, .f32⟩
  | 4 => ⟨S64x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x64, .f32⟩
  | 19 => ⟨S_, .i32⟩
  | 20 => ⟨S1600000, .i32⟩
  | 21 => ⟨S1600000, .i1⟩
  | 22 => ⟨S1600000, .f32⟩
  | 23 => ⟨S1600000x1, .f32⟩
  | 24 => ⟨S1600000x64, .f32⟩
  | 25 => ⟨S1600000x64, .f32⟩
  | 26 => ⟨S_, .f32⟩
  | 27 => ⟨S100000x64, .f32⟩
  | 28 => ⟨S1600000x1, .i32⟩
  | 29 => ⟨S100000x64, .f32⟩
  | 30 => ⟨S_, .f32⟩
  | 31 => ⟨S100000, .f32⟩
  | 32 => ⟨S1600000x1, .i32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x64, .f32⟩
  | 39 => ⟨S100000x64, .f32⟩
  | 40 => ⟨S_, .i32⟩
  | 41 => ⟨S1600000, .i32⟩
  | 42 => ⟨S1600000, .i1⟩
  | 43 => ⟨S1600000, .f32⟩
  | 44 => ⟨S1600000x1, .f32⟩
  | 45 => ⟨S1600000x64, .f32⟩
  | 46 => ⟨S1600000x64, .f32⟩
  | 47 => ⟨S_, .f32⟩
  | 48 => ⟨S100000x64, .f32⟩
  | 49 => ⟨S1600000x1, .i32⟩
  | 50 => ⟨S100000x64, .f32⟩
  | 51 => ⟨S_, .f32⟩
  | 52 => ⟨S100000, .f32⟩
  | 53 => ⟨S1600000x1, .i32⟩
  | 54 => ⟨S100000, .f32⟩
  | 55 => ⟨S_, .f32⟩
  | 56 => ⟨S100000, .f32⟩
  | 57 => ⟨S100000, .f32⟩
  | 58 => ⟨S100000x1, .f32⟩
  | 59 => ⟨S100000x64, .f32⟩
  | 60 => ⟨S100000x64, .f32⟩
  | 61 => ⟨S_, .i32⟩
  | 62 => ⟨S1600000, .i32⟩
  | 63 => ⟨S1600000, .i1⟩
  | 64 => ⟨S1600000, .f32⟩
  | 65 => ⟨S1600000x1, .f32⟩
  | 66 => ⟨S1600000x64, .f32⟩
  | 67 => ⟨S1600000x64, .f32⟩
  | 68 => ⟨S_, .f32⟩
  | 69 => ⟨S100000x64, .f32⟩
  | 70 => ⟨S1600000x1, .i32⟩
  | 71 => ⟨S100000x64, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .f32⟩
  | 79 => ⟨S100000x1, .f32⟩
  | 80 => ⟨S100000x64, .f32⟩
  | 81 => ⟨S100000x64, .f32⟩
  | 82 => ⟨S_, .i32⟩
  | 83 => ⟨S1600000, .i32⟩
  | 84 => ⟨S1600000, .i1⟩
  | 85 => ⟨S1600000, .f32⟩
  | 86 => ⟨S1600000x1, .f32⟩
  | 87 => ⟨S1600000x64, .f32⟩
  | 88 => ⟨S1600000x64, .f32⟩
  | 89 => ⟨S_, .f32⟩
  | 90 => ⟨S100000x64, .f32⟩
  | 91 => ⟨S1600000x1, .i32⟩
  | 92 => ⟨S100000x64, .f32⟩
  | 93 => ⟨S_, .f32⟩
  | 94 => ⟨S100000, .f32⟩
  | 95 => ⟨S1600000x1, .i32⟩
  | 96 => ⟨S100000, .f32⟩
  | 97 => ⟨S_, .f32⟩
  | 98 => ⟨S100000, .f32⟩
  | 99 => ⟨S100000, .f32⟩
  | 100 => ⟨S100000x1, .f32⟩
  | 101 => ⟨S100000x64, .f32⟩
  | 102 => ⟨S100000x64, .f32⟩
  | 103 => ⟨S_, .i32⟩
  | 104 => ⟨S1600000, .i32⟩
  | 105 => ⟨S1600000, .i1⟩
  | 106 => ⟨S1600000, .f32⟩
  | 107 => ⟨S1600000x1, .f32⟩
  | 108 => ⟨S1600000x64, .f32⟩
  | 109 => ⟨S1600000x64, .f32⟩
  | 110 => ⟨S_, .f32⟩
  | 111 => ⟨S100000x64, .f32⟩
  | 112 => ⟨S1600000x1, .i32⟩
  | 113 => ⟨S100000x64, .f32⟩
  | 114 => ⟨S_, .f32⟩
  | 115 => ⟨S100000, .f32⟩
  | 116 => ⟨S1600000x1, .i32⟩
  | 117 => ⟨S100000, .f32⟩
  | 118 => ⟨S_, .f32⟩
  | 119 => ⟨S100000, .f32⟩
  | 120 => ⟨S100000, .f32⟩
  | 121 => ⟨S100000x1, .f32⟩
  | 122 => ⟨S100000x64, .f32⟩
  | 123 => ⟨S100000x64, .f32⟩
  | 124 => ⟨S_, .i32⟩
  | 125 => ⟨S1600000, .i32⟩
  | 126 => ⟨S1600000, .i1⟩
  | 127 => ⟨S1600000, .f32⟩
  | _ => ⟨S100000x64, .f32⟩

abbrev hbmTy0_1 (i : Nat) : BufTy := match i % 128 with
  | 0 => ⟨S1600000x1, .f32⟩
  | 1 => ⟨S1600000x64, .f32⟩
  | 2 => ⟨S1600000x64, .f32⟩
  | 3 => ⟨S_, .f32⟩
  | 4 => ⟨S100000x64, .f32⟩
  | 5 => ⟨S1600000x1, .i32⟩
  | 6 => ⟨S100000x64, .f32⟩
  | 7 => ⟨S_, .f32⟩
  | 8 => ⟨S100000, .f32⟩
  | 9 => ⟨S1600000x1, .i32⟩
  | 10 => ⟨S100000, .f32⟩
  | 11 => ⟨S_, .f32⟩
  | 12 => ⟨S100000, .f32⟩
  | 13 => ⟨S100000, .f32⟩
  | 14 => ⟨S100000x1, .f32⟩
  | 15 => ⟨S100000x64, .f32⟩
  | 16 => ⟨S100000x64, .f32⟩
  | 17 => ⟨S_, .i32⟩
  | 18 => ⟨S1600000, .i32⟩
  | 19 => ⟨S1600000, .i1⟩
  | 20 => ⟨S1600000, .f32⟩
  | 21 => ⟨S1600000x1, .f32⟩
  | 22 => ⟨S1600000x64, .f32⟩
  | 23 => ⟨S1600000x64, .f32⟩
  | 24 => ⟨S_, .f32⟩
  | 25 => ⟨S100000x64, .f32⟩
  | 26 => ⟨S1600000x1, .i32⟩
  | 27 => ⟨S100000x64, .f32⟩
  | 28 => ⟨S_, .f32⟩
  | 29 => ⟨S100000, .f32⟩
  | 30 => ⟨S1600000x1, .i32⟩
  | 31 => ⟨S100000, .f32⟩
  | 32 => ⟨S_, .f32⟩
  | 33 => ⟨S100000, .f32⟩
  | 34 => ⟨S100000, .f32⟩
  | 35 => ⟨S100000x1, .f32⟩
  | 36 => ⟨S100000x64, .f32⟩
  | 37 => ⟨S100000x64, .f32⟩
  | 38 => ⟨S_, .i32⟩
  | 39 => ⟨S1600000, .i32⟩
  | 40 => ⟨S1600000, .i1⟩
  | 41 => ⟨S1600000, .f32⟩
  | 42 => ⟨S1600000x1, .f32⟩
  | 43 => ⟨S1600000x64, .f32⟩
  | 44 => ⟨S1600000x64, .f32⟩
  | 45 => ⟨S_, .f32⟩
  | 46 => ⟨S100000x64, .f32⟩
  | 47 => ⟨S1600000x1, .i32⟩
  | 48 => ⟨S100000x64, .f32⟩
  | 49 => ⟨S_, .f32⟩
  | 50 => ⟨S100000, .f32⟩
  | 51 => ⟨S1600000x1, .i32⟩
  | 52 => ⟨S100000, .f32⟩
  | 53 => ⟨S_, .f32⟩
  | 54 => ⟨S100000, .f32⟩
  | 55 => ⟨S100000, .f32⟩
  | 56 => ⟨S100000x1, .f32⟩
  | 57 => ⟨S100000x64, .f32⟩
  | 58 => ⟨S100000x64, .f32⟩
  | 59 => ⟨S100000x512, .f32⟩
  | 60 => ⟨S512x64, .f32⟩
  | 61 => ⟨S1x64, .f32⟩
  | 62 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S4000x64, .f32⟩
  | .local _ .vmem, ⟨1, _⟩ => ⟨S4000x64, .f32⟩
  | .local _ .vmem, ⟨2, _⟩ => ⟨S4000x512, .f32⟩
  | .local _ .vmem, ⟨3, _⟩ => ⟨S4000x512, .f32⟩
  | .local _ .vmem, ⟨4, _⟩ => ⟨S64x64, .f32⟩
  | .local _ .vmem, ⟨5, _⟩ => ⟨S512x64, .f32⟩
  | .local _ .vmem, ⟨6, _⟩ => ⟨S1x64, .f32⟩
  | .local _ .vmem, ⟨7, _⟩ => ⟨S4000x64, .f32⟩
  | .local _ .vmem, ⟨8, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_c_12 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_13 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_14 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_15 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_c_16 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_17 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_18 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_19 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_c_20 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_21 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_22 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_23 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_c_24 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_25 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_26 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_cst_27 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_c_28 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_cst_29 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_cst_30 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_cst_31 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x64_S100000x64_S100000x64_S100000x64_S100000x64_S100000x64_S100000x512_d1 : Shape.Concatenates [S100000x64, S100000x64, S100000x64, S100000x64, S100000x64, S100000x64, S100000x64, S100000x64] S100000x512 1
  shapeCasts_S8x64x64_S512x64 : S8x64x64.ShapeCasts S512x64
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S4000x512_S4000x512_0_0 : ∀ a, (![0, 0] : Fin 2 → Nat) a + S4000x512.size a ≤ S4000x512.size a
  h_S4000x512 : 0 < S4000x512.numel
  shapeCasts_S4000x512_S4000x512 : S4000x512.ShapeCasts S4000x512
  inb_S64x64_S64x64_0_0 : ∀ a, (![0, 0] : Fin 2 → Nat) a + S64x64.size a ≤ S64x64.size a
  h_S64x64 : 0 < S64x64.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S4000x64_S64x64_S4000x64_1_0_0_1_n_n_wf : DotDims.WF S4000x64 S64x64 S4000x64 [1] [0] [0] [1] [] []
  dot_S4000x512_S512x64_S4000x64_1_0_0_1_n_n_wf : DotDims.WF S4000x512 S512x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x512.size a ≤ S100000x512.size a
  hwx0_1 : ∀ i : grid0.Coords, EltTy.bits .f32 = 32 ∨ (Rect.block (s := S100000x512) S4000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .f32 = 32 ∨ (Rect.block (s := S512x64) S512x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S100000x64.size a
  hwx0_5 : ∀ i : grid0.Coords, EltTy.bits .f32 = 32 ∨ (Rect.block (s := S100000x64) S4000x64.size (cc0_transform_5 i) (hinb0_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x512_S512x64_S4000x64_1_0_0_1_n_n : DotDims S4000x512 S512x64 S4000x64 where
  lhsContracting := [1]
  rhsContracting := [0]
  lhsNonContracting := [0]
  rhsNonContracting := [1]
  lhsBatch := []
  rhsBatch := []
  wf := dot_S4000x512_S512x64_S4000x64_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v147) S4000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v148) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v149) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v150) S4000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S8x64x64 : Shape := ⟨3, ![8, 64, 64]⟩
abbrev S64x64 : Shape := ⟨2, ![64, 64]⟩
abbrev S64 : Shape := ⟨1, ![64]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000 : Shape := ⟨1, ![100000]⟩
abbrev S100000x1 : Shape := ⟨2, ![100000, 1]⟩
abbrev S1x64x64 : Shape := ⟨3, ![1, 64, 64]⟩

abbrev nBuf : Space → Nat
  | .hbm => 226
  | .vmem => 0
  | .smem => 0
  | _ => 0

abbrev hbmTy0_0 (i : Nat) : BufTy := match i % 128 with
  | 0 => ⟨S100000x64, .f32⟩
  | 1 => ⟨S2x1600000, .i32⟩
  | 2 => ⟨S1600000, .i32⟩
  | 3 => ⟨S8x64x64, .f32⟩
  | 4 => ⟨S64x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x64, .f32⟩
  | 19 => ⟨S100000x64, .f32⟩
  | 20 => ⟨S1x64, .f32⟩
  | 21 => ⟨S100000x64, .f32⟩
  | 22 => ⟨S100000x64, .f32⟩
  | 23 => ⟨S_, .i32⟩
  | 24 => ⟨S1600000, .i32⟩
  | 25 => ⟨S1600000, .i1⟩
  | 26 => ⟨S1600000, .f32⟩
  | 27 => ⟨S1600000x1, .f32⟩
  | 28 => ⟨S1600000x64, .f32⟩
  | 29 => ⟨S1600000x64, .f32⟩
  | 30 => ⟨S_, .f32⟩
  | 31 => ⟨S100000x64, .f32⟩
  | 32 => ⟨S1600000x1, .i32⟩
  | 33 => ⟨S100000x64, .f32⟩
  | 34 => ⟨S_, .f32⟩
  | 35 => ⟨S100000, .f32⟩
  | 36 => ⟨S1600000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x64, .f32⟩
  | 43 => ⟨S100000x64, .f32⟩
  | 44 => ⟨S1x64x64, .f32⟩
  | 45 => ⟨S64x64, .f32⟩
  | 46 => ⟨S100000x64, .f32⟩
  | 47 => ⟨S100000x64, .f32⟩
  | 48 => ⟨S_, .i32⟩
  | 49 => ⟨S1600000, .i32⟩
  | 50 => ⟨S1600000, .i1⟩
  | 51 => ⟨S1600000, .f32⟩
  | 52 => ⟨S1600000x1, .f32⟩
  | 53 => ⟨S1600000x64, .f32⟩
  | 54 => ⟨S1600000x64, .f32⟩
  | 55 => ⟨S_, .f32⟩
  | 56 => ⟨S100000x64, .f32⟩
  | 57 => ⟨S1600000x1, .i32⟩
  | 58 => ⟨S100000x64, .f32⟩
  | 59 => ⟨S_, .f32⟩
  | 60 => ⟨S100000, .f32⟩
  | 61 => ⟨S1600000x1, .i32⟩
  | 62 => ⟨S100000, .f32⟩
  | 63 => ⟨S_, .f32⟩
  | 64 => ⟨S100000, .f32⟩
  | 65 => ⟨S100000, .f32⟩
  | 66 => ⟨S100000x1, .f32⟩
  | 67 => ⟨S100000x64, .f32⟩
  | 68 => ⟨S100000x64, .f32⟩
  | 69 => ⟨S1x64x64, .f32⟩
  | 70 => ⟨S64x64, .f32⟩
  | 71 => ⟨S100000x64, .f32⟩
  | 72 => ⟨S100000x64, .f32⟩
  | 73 => ⟨S_, .i32⟩
  | 74 => ⟨S1600000, .i32⟩
  | 75 => ⟨S1600000, .i1⟩
  | 76 => ⟨S1600000, .f32⟩
  | 77 => ⟨S1600000x1, .f32⟩
  | 78 => ⟨S1600000x64, .f32⟩
  | 79 => ⟨S1600000x64, .f32⟩
  | 80 => ⟨S_, .f32⟩
  | 81 => ⟨S100000x64, .f32⟩
  | 82 => ⟨S1600000x1, .i32⟩
  | 83 => ⟨S100000x64, .f32⟩
  | 84 => ⟨S_, .f32⟩
  | 85 => ⟨S100000, .f32⟩
  | 86 => ⟨S1600000x1, .i32⟩
  | 87 => ⟨S100000, .f32⟩
  | 88 => ⟨S_, .f32⟩
  | 89 => ⟨S100000, .f32⟩
  | 90 => ⟨S100000, .f32⟩
  | 91 => ⟨S100000x1, .f32⟩
  | 92 => ⟨S100000x64, .f32⟩
  | 93 => ⟨S100000x64, .f32⟩
  | 94 => ⟨S1x64x64, .f32⟩
  | 95 => ⟨S64x64, .f32⟩
  | 96 => ⟨S100000x64, .f32⟩
  | 97 => ⟨S100000x64, .f32⟩
  | 98 => ⟨S_, .i32⟩
  | 99 => ⟨S1600000, .i32⟩
  | 100 => ⟨S1600000, .i1⟩
  | 101 => ⟨S1600000, .f32⟩
  | 102 => ⟨S1600000x1, .f32⟩
  | 103 => ⟨S1600000x64, .f32⟩
  | 104 => ⟨S1600000x64, .f32⟩
  | 105 => ⟨S_, .f32⟩
  | 106 => ⟨S100000x64, .f32⟩
  | 107 => ⟨S1600000x1, .i32⟩
  | 108 => ⟨S100000x64, .f32⟩
  | 109 => ⟨S_, .f32⟩
  | 110 => ⟨S100000, .f32⟩
  | 111 => ⟨S1600000x1, .i32⟩
  | 112 => ⟨S100000, .f32⟩
  | 113 => ⟨S_, .f32⟩
  | 114 => ⟨S100000, .f32⟩
  | 115 => ⟨S100000, .f32⟩
  | 116 => ⟨S100000x1, .f32⟩
  | 117 => ⟨S100000x64, .f32⟩
  | 118 => ⟨S100000x64, .f32⟩
  | 119 => ⟨S1x64x64, .f32⟩
  | 120 => ⟨S64x64, .f32⟩
  | 121 => ⟨S100000x64, .f32⟩
  | 122 => ⟨S100000x64, .f32⟩
  | 123 => ⟨S_, .i32⟩
  | 124 => ⟨S1600000, .i32⟩
  | 125 => ⟨S1600000, .i1⟩
  | 126 => ⟨S1600000, .f32⟩
  | 127 => ⟨S1600000x1, .f32⟩
  | _ => ⟨S100000x64, .f32⟩

abbrev hbmTy0_1 (i : Nat) : BufTy := match i % 128 with
  | 0 => ⟨S1600000x64, .f32⟩
  | 1 => ⟨S1600000x64, .f32⟩
  | 2 => ⟨S_, .f32⟩
  | 3 => ⟨S100000x64, .f32⟩
  | 4 => ⟨S1600000x1, .i32⟩
  | 5 => ⟨S100000x64, .f32⟩
  | 6 => ⟨S_, .f32⟩
  | 7 => ⟨S100000, .f32⟩
  | 8 => ⟨S1600000x1, .i32⟩
  | 9 => ⟨S100000, .f32⟩
  | 10 => ⟨S_, .f32⟩
  | 11 => ⟨S100000, .f32⟩
  | 12 => ⟨S100000, .f32⟩
  | 13 => ⟨S100000x1, .f32⟩
  | 14 => ⟨S100000x64, .f32⟩
  | 15 => ⟨S100000x64, .f32⟩
  | 16 => ⟨S1x64x64, .f32⟩
  | 17 => ⟨S64x64, .f32⟩
  | 18 => ⟨S100000x64, .f32⟩
  | 19 => ⟨S100000x64, .f32⟩
  | 20 => ⟨S_, .i32⟩
  | 21 => ⟨S1600000, .i32⟩
  | 22 => ⟨S1600000, .i1⟩
  | 23 => ⟨S1600000, .f32⟩
  | 24 => ⟨S1600000x1, .f32⟩
  | 25 => ⟨S1600000x64, .f32⟩
  | 26 => ⟨S1600000x64, .f32⟩
  | 27 => ⟨S_, .f32⟩
  | 28 => ⟨S100000x64, .f32⟩
  | 29 => ⟨S1600000x1, .i32⟩
  | 30 => ⟨S100000x64, .f32⟩
  | 31 => ⟨S_, .f32⟩
  | 32 => ⟨S100000, .f32⟩
  | 33 => ⟨S1600000x1, .i32⟩
  | 34 => ⟨S100000, .f32⟩
  | 35 => ⟨S_, .f32⟩
  | 36 => ⟨S100000, .f32⟩
  | 37 => ⟨S100000, .f32⟩
  | 38 => ⟨S100000x1, .f32⟩
  | 39 => ⟨S100000x64, .f32⟩
  | 40 => ⟨S100000x64, .f32⟩
  | 41 => ⟨S1x64x64, .f32⟩
  | 42 => ⟨S64x64, .f32⟩
  | 43 => ⟨S100000x64, .f32⟩
  | 44 => ⟨S100000x64, .f32⟩
  | 45 => ⟨S_, .i32⟩
  | 46 => ⟨S1600000, .i32⟩
  | 47 => ⟨S1600000, .i1⟩
  | 48 => ⟨S1600000, .f32⟩
  | 49 => ⟨S1600000x1, .f32⟩
  | 50 => ⟨S1600000x64, .f32⟩
  | 51 => ⟨S1600000x64, .f32⟩
  | 52 => ⟨S_, .f32⟩
  | 53 => ⟨S100000x64, .f32⟩
  | 54 => ⟨S1600000x1, .i32⟩
  | 55 => ⟨S100000x64, .f32⟩
  | 56 => ⟨S_, .f32⟩
  | 57 => ⟨S100000, .f32⟩
  | 58 => ⟨S1600000x1, .i32⟩
  | 59 => ⟨S100000, .f32⟩
  | 60 => ⟨S_, .f32⟩
  | 61 => ⟨S100000, .f32⟩
  | 62 => ⟨S100000, .f32⟩
  | 63 => ⟨S100000x1, .f32⟩
  | 64 => ⟨S100000x64, .f32⟩
  | 65 => ⟨S100000x64, .f32⟩
  | 66 => ⟨S1x64x64, .f32⟩
  | 67 => ⟨S64x64, .f32⟩
  | 68 => ⟨S100000x64, .f32⟩
  | 69 => ⟨S100000x64, .f32⟩
  | 70 => ⟨S_, .i32⟩
  | 71 => ⟨S1600000, .i32⟩
  | 72 => ⟨S1600000, .i1⟩
  | 73 => ⟨S1600000, .f32⟩
  | 74 => ⟨S1600000x1, .f32⟩
  | 75 => ⟨S1600000x64, .f32⟩
  | 76 => ⟨S1600000x64, .f32⟩
  | 77 => ⟨S_, .f32⟩
  | 78 => ⟨S100000x64, .f32⟩
  | 79 => ⟨S1600000x1, .i32⟩
  | 80 => ⟨S100000x64, .f32⟩
  | 81 => ⟨S_, .f32⟩
  | 82 => ⟨S100000, .f32⟩
  | 83 => ⟨S1600000x1, .i32⟩
  | 84 => ⟨S100000, .f32⟩
  | 85 => ⟨S_, .f32⟩
  | 86 => ⟨S100000, .f32⟩
  | 87 => ⟨S100000, .f32⟩
  | 88 => ⟨S100000x1, .f32⟩
  | 89 => ⟨S100000x64, .f32⟩
  | 90 => ⟨S100000x64, .f32⟩
  | 91 => ⟨S1x64x64, .f32⟩
  | 92 => ⟨S64x64, .f32⟩
  | 93 => ⟨S100000x64, .f32⟩
  | 94 => ⟨S100000x64, .f32⟩
  | 95 => ⟨S_, .f32⟩
  | 96 => ⟨S100000x64, .f32⟩
  | 97 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c_8 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_9 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_10 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_11 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_c_12 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_13 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_14 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_15 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_c_16 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_cst_17 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_cst_18 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_cst_19 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_c_20 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_cst_21 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_cst_22 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_cst_23 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_c_24 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_cst_25 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_cst_26 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_cst_27 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_c_28 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_cst_29 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_cst_30 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_cst_31 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_call0_cst : Ref sig .tc := ⟨.hbm, 223, rfl⟩
abbrev main_call0_v0 : Ref sig .tc := ⟨.hbm, 224, rfl⟩
abbrev main_v183 : Ref sig .tc := ⟨.hbm, 225, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S8x64x64_S1x64x64_0_0_0 : S8x64x64.Slices ![0, 0, 0] S1x64x64
  shapeCasts_S1x64x64_S64x64 : S1x64x64.ShapeCasts S64x64
  slices_S8x64x64_S1x64x64_1_0_0 : S8x64x64.Slices ![1, 0, 0] S1x64x64
  slices_S8x64x64_S1x64x64_2_0_0 : S8x64x64.Slices ![2, 0, 0] S1x64x64
  slices_S8x64x64_S1x64x64_3_0_0 : S8x64x64.Slices ![3, 0, 0] S1x64x64
  slices_S8x64x64_S1x64x64_4_0_0 : S8x64x64.Slices ![4, 0, 0] S1x64x64
  slices_S8x64x64_S1x64x64_5_0_0 : S8x64x64.Slices ![5, 0, 0] S1x64x64
  slices_S8x64x64_S1x64x64_6_0_0 : S8x64x64.Slices ![6, 0, 0] S1x64x64
  slices_S8x64x64_S1x64x64_7_0_0 : S8x64x64.Slices ![7, 0, 0] S1x64x64
  gather_S100000x64_S1600000x1_S1600000x64_1_0_n_n_0_1_164_wf : GatherDims.WF S100000x64 S1600000x1 S1600000x64 [1] [0] [] [0] [] 1 ![1, 64]
  dot_S100000x64_S64x64_S100000x64_1_0_0_1_n_n_wf : DotDims.WF S100000x64 S64x64 S100000x64 [1] [0] [0] [1] [] []
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.EntryK.lean ====
/-
  The arrays as the one region of `Kernel`'s @main finds them.

  @main is 184 host operations followed by the region. Every host operation is a pure function of buffers written
  before it into a buffer of its own, so when the region is entered each buffer holds the fold of those operations over
  the launch memory (`entry`). No operation writes an argument array, so the six arguments are found as launched; that
  is the whole content of the frame claim on the host side.
-/
import proofs.«152529_j70617852281332_1_alg».proof.Proof.Gen.Kernel.Launch
import Idealize.ShloMosaic.Lib.Pipeline.FrameBody

set_option maxRecDepth 16384

noncomputable section

namespace Cert.Kernel.Region

open Idealize.ShloMosaic Idealize.ShloMosaic.TcCoe
open Idealize.SL Idealize.SL.RA Idealize.SL.BI
open scoped Idealize.SL.BI
open Idealize.SL.BI.BIBase Idealize.SL.Sem
open Cert.Kernel Cert.Kernel.Gen

variable {F : FTy → Type} [FloatOps F]
variable (m : (ℓ : Loc nD τ sig) → Buf (Elt F) ℓ)

/-- Core `c`'s buffers when the region is entered: the host operations folded over the launch memory. -/
abbrev entry (c : Dev nD) (b : Ref sig .tc) : Buf (Elt F) ((c : Thread nD τ).loc b) :=
  StableHlo.after hostOps0 (fun b => m (c, b)) b

/-- No host operation allocates. -/
theorem hostOps_allocate_nothing : (hostOps0 : List (HloOp τ sig (Elt F))).Forall fun op => op.fresh = ∅ := by
  simp only [List.Forall]; repeat' constructor

/-- @main is the host operations, then the region, entered at `entry`. -/
theorem main_reaches_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps_allocate_nothing main_chain

/-- A buffer no host operation writes is found as launched. The hypothesis is decided per operation. -/
theorem entry_of_unwritten (c : Dev nD) (b : Ref sig .tc)
    (h : ∀ op ∈ (hostOps0 : List (HloOp τ sig (Elt F))), Proc.devRef .tc b ∉ op.writes) :
    entry m c b = m ((c : Thread nD τ).loc b) :=
  StableHlo.after_of_forall_not_mem (b := Proc.devRef .tc b) _ _ h

/-- No host operation writes `main_arg0`: the region finds it as launched. -/
theorem entry_arg0 (c : Dev nD) : entry m c main_arg0 = m ((c : Thread nD τ).loc main_arg0) :=
  entry_of_unwritten m c main_arg0 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation writes `main_arg1`: the region finds it as launched. -/
theorem entry_arg1 (c : Dev nD) : entry m c main_arg1 = m ((c : Thread nD τ).loc main_arg1) :=
  entry_of_unwritten m c main_arg1 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation writes `main_arg2`: the region finds it as launched. -/
theorem entry_arg2 (c : Dev nD) : entry m c main_arg2 = m ((c : Thread nD τ).loc main_arg2) :=
  entry_of_unwritten m c main_arg2 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation writes `main_arg3`: the region finds it as launched. -/
theorem entry_arg3 (c : Dev nD) : entry m c main_arg3 = m ((c : Thread nD τ).loc main_arg3) :=
  entry_of_unwritten m c main_arg3 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation writes `main_arg4`: the region finds it as launched. -/
theorem entry_arg4 (c : Dev nD) : entry m c main_arg4 = m ((c : Thread nD τ).loc main_arg4) :=
  entry_of_unwritten m c main_arg4 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation writes `main_arg5`: the region finds it as launched. -/
theorem entry_arg5 (c : Dev nD) : entry m c main_arg5 = m ((c : Thread nD τ).loc main_arg5) :=
  entry_of_unwritten m c main_arg5 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

end Cert.Kernel.Region

end
-- ==== Proof.FrameK.lean ====
/-
  The frame of `Kernel`: what the region's body leaves at each grid point, and the run of @main.

  The grid has 25 points. Point `t` stages rows 4000·t … 4000·t + 3999 of the node features and of the stacked
  per-relation means, and the whole of the root weights, the stacked relation weights and the bias row; it writes rows
  4000·t … 4000·t + 3999 of the result. The body loads the five input blocks whole, computes one value of them — the
  skeleton's payload: root product plus stacked product plus bias, clamped below at zero — and stores it over the whole
  output block. So after the body the output buffer holds that payload of the input blocks, whatever it held before,
  and every input buffer holds what it held. With the arrays at the region's entry (`entry`) that is the proof data of
  the library's frame run; the frame claim reads the six argument arrays off its post.
-/
import proofs.«152529_j70617852281332_1_alg».proof.Proof.EntryK
import proofs.«152529_j70617852281332_1_alg».proof.Proof.Gen.Kernel.Skeleton
import proofs.«152529_j70617852281332_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

/-- Window `w`'s block at point `t`, read off its array as the region finds it. -/
def block (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds its block at every point, fetched there or not: where it is not
    fetched its block index has not moved since the point that fetched it, and the body leaves the buffer as found. -/
theorem found_0 {c : Dev nD} (dat : Dat τ (Elt F) Unit ℕ (UR sig nD τ) ℕ cfg0 c) (hA : dat.A 0 = entry m c (Pipeline.arrRef spec0 0))
    (hafter : ∀ t, dat.after 0 t = block m c 0 t) (t : Fin cfg0.N) (d) : dat.before 0 t d = block m c 0 t :=
  (dat.before_in_eq_fetched 0 rfl (fun _ => rfl) (fun _ _ _ => rfl) (fun t => by rw [hafter]; unfold Dat.blockOf block; rw [hA]; try rfl) t d).trans
    (by unfold Dat.fetched Dat.blockOf block; rw [hA]; try rfl)
/-- Input window 1's current staging buffer holds its block at every point, fetched there or not: where it is not
    fetched its block index has not moved since the point that fetched it, and the body leaves the buffer as found. -/
theorem found_1 {c : Dev nD} (dat : Dat τ (Elt F) Unit ℕ (UR sig nD τ) ℕ cfg0 c) (hA : dat.A 1 = entry m c (Pipeline.arrRef spec0 1))
    (hafter : ∀ t, dat.after 1 t = block m c 1 t) (t : Fin cfg0.N) (d) : dat.before 1 t d = block m c 1 t :=
  (dat.before_in_eq_fetched 1 rfl (fun _ => rfl) (fun _ _ _ => rfl) (fun t => by rw [hafter]; unfold Dat.blockOf block; rw [hA]; try rfl) t d).trans
    (by unfold Dat.fetched Dat.blockOf block; rw [hA]; try rfl)
/-- Input window 2's current staging buffer holds its block at every point, fetched there or not: where it is not
    fetched its block index has not moved since the point that fetched it, and the body leaves the buffer as found. -/
theorem found_2 {c : Dev nD} (dat : Dat τ (Elt F) Unit ℕ (UR sig nD τ) ℕ cfg0 c) (hA : dat.A 2 = entry m c (Pipeline.arrRef spec0 2))
    (hafter : ∀ t, dat.after 2 t = block m c 2 t) (t : Fin cfg0.N) (d) : dat.before 2 t d = block m c 2 t :=
  (dat.before_in_eq_fetched 2 rfl (fun _ => rfl) (fun _ _ _ => rfl) (fun t => by rw [hafter]; unfold Dat.blockOf block; rw [hA]; try rfl) t d).trans
    (by unfold Dat.fetched Dat.blockOf block; rw [hA]; try rfl)
/-- Input window 3's current staging buffer holds its block at every point, fetched there or not: where it is not
    fetched its block index has not moved since the point that fetched it, and the body leaves the buffer as found. -/
theorem found_3 {c : Dev nD} (dat : Dat τ (Elt F) Unit ℕ (UR sig nD τ) ℕ cfg0 c) (hA : dat.A 3 = entry m c (Pipeline.arrRef spec0 3))
    (hafter : ∀ t, dat.after 3 t = block m c 3 t) (t : Fin cfg0.N) (d) : dat.before 3 t d = block m c 3 t :=
  (dat.before_in_eq_fetched 3 rfl (fun _ => rfl) (fun _ _ _ => rfl) (fun t => by rw [hafter]; unfold Dat.blockOf block; rw [hA]; try rfl) t d).trans
    (by unfold Dat.fetched Dat.blockOf block; rw [hA]; try rfl)
/-- Input window 4's current staging buffer holds its block at every point, fetched there or not: where it is not
    fetched its block index has not moved since the point that fetched it, and the body leaves the buffer as found. -/
theorem found_4 {c : Dev nD} (dat : Dat τ (Elt F) Unit ℕ (UR sig nD τ) ℕ cfg0 c) (hA : dat.A 4 = entry m c (Pipeline.arrRef spec0 4))
    (hafter : ∀ t, dat.after 4 t = block m c 4 t) (t : Fin cfg0.N) (d) : dat.before 4 t d = block m c 4 t :=
  (dat.before_in_eq_fetched 4 rfl (fun _ => rfl) (fun _ _ _ => rfl) (fun t => by rw [hafter]; unfold Dat.blockOf block; rw [hA]; try rfl) t d).trans
    (by unfold Dat.fetched Dat.blockOf block; rw [hA]; try rfl)

/-! ## What the body leaves in the output buffer -/

/-- The whole of each staging buffer, as the body's loads and its one store address it. -/
abbrev allX : Rect S4000x64 := Rect.unit (s := S4000x64) ![0, 0] S4000x64.size inb_S4000x64_S4000x64_0_0
abbrev allMeans : Rect S4000x512 := Rect.unit (s := S4000x512) ![0, 0] S4000x512.size inb_S4000x512_S4000x512_0_0
abbrev allRoot : Rect S64x64 := Rect.unit (s := S64x64) ![0, 0] S64x64.size inb_S64x64_S64x64_0_0
abbrev allStack : Rect S512x64 := Rect.unit (s := S512x64) ![0, 0] S512x64.size inb_S512x64_S512x64_0_0
abbrev allBias : Rect S1x64 := Rect.unit (s := S1x64) ![0, 0] S1x64.size inb_S1x64_S1x64_0_0

/-- The output buffer after the body, from the five input blocks: its one store, over the payload of the loads. -/
def resultBlock (x0 : Vec F S4000x64 .f32) (x1 : Vec F S4000x512 .f32) (x2 : Vec F S64x64 .f32) (x3 : Vec F S512x64 .f32) (x4 : Vec F S1x64 .f32) : Vec F S4000x64 .f32 :=
  View.canon [⟨allX, k0_pay1 (View.ld x0 allX) (View.ld x1 allMeans) (View.ld x2 allRoot) (View.ld x3 allStack) (View.ld x4 allBias)⟩]

/-- The one store covers the buffer. -/
theorem store_covers (p0 : Vec F S4000x64 .f32) (y : S4000x64.Idx) :
    ∃ pc ∈ ([⟨allX, p0⟩] : List (View.Piece (Elt F) S4000x64 .f32)), y ∈ pc.1.set :=
  View.cover_of_tiled [⟨allX, p0⟩] S4000x64.size (by rfl) y

/-! ## The body's triple -/

set_option maxHeartbeats 4000000 in
/-- The body on whole staging memrefs, the inputs' at read contents `xW` and the output's at anything, runs to the
    continuation holding the inputs' as they were and the output's at `resultBlock` of the inputs'. -/
theorem body_triple (c : Dev nD) (E : Set ℕ) (i : grid0.Coords)
    (a1 : Memref sig .tc .vmem S4000x64 .f32) (h1 : a1.IsWhole) (a2 : Memref sig .tc .vmem S4000x512 .f32) (h2 : a2.IsWhole)
    (a3 : Memref sig .tc .vmem S64x64 .f32) (h3 : a3.IsWhole) (a4 : Memref sig .tc .vmem S512x64 .f32) (h4 : a4.IsWhole)
    (a5 : Memref sig .tc .vmem S1x64 .f32) (h5 : a5.IsWhole) (a6 : Memref sig .tc .vmem S4000x64 .f32) (h6 : a6.IsWhole)
    (x0 : Vec F S4000x64 .f32) (x1 : Vec F S4000x512 .f32) (x2 : Vec F S64x64 .f32) (x3 : Vec F S512x64 .f32) (x4 : Vec F S1x64 .f32)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (resultBlock x0 x1 x2 x3 x4)) -∗ K ⟨⟩))
      ⊢ wp frame (wpE (defs₀ (F := F)) Variants.none c none) E (cc0__combine_kernel i a1 h1 a2 h2 a3 h3 a4 h4 a5 h5 a6 h6) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-! ## The proof data -/

/-- The proof data of the pipeline on core `c`: the arrays as the region finds them; after the body at point `t` each
    input's buffer at its block and the output's at `resultBlock` of the input blocks; the invariant the scoped rest and
    the generator register, untouched; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => block m c 0 t
    | ⟨1, _⟩ => block m c 1 t
    | ⟨2, _⟩ => block m c 2 t
    | ⟨3, _⟩ => block m c 3 t
    | ⟨4, _⟩ => block m c 4 t
    | ⟨5, _⟩ => resultBlock (block m c 0 t) (block m c 1 t) (block m c 2 t) (block m c 3 t) (block m c 4 t)
  Φ _ := Pipeline.ΦA spec0 c
  q _ := fullShare
  owed _ := 0

/-- The proof data's arrays are the region-entry contents. -/
theorem arrays_at_entry (c : Dev nD) (w : Fin cfg0.W) : (dats m 0 c).A w = entry m c (Pipeline.arrRef spec0 w) := by
  dsimp only [dats]

theorem after_0 (c : Dev nD) (t : Fin cfg0.N) : (dats m 0 c).after 0 t = block m c 0 t := by dsimp only [dats]
theorem after_1 (c : Dev nD) (t : Fin cfg0.N) : (dats m 0 c).after 1 t = block m c 1 t := by dsimp only [dats]
theorem after_2 (c : Dev nD) (t : Fin cfg0.N) : (dats m 0 c).after 2 t = block m c 2 t := by dsimp only [dats]
theorem after_3 (c : Dev nD) (t : Fin cfg0.N) : (dats m 0 c).after 3 t = block m c 3 t := by dsimp only [dats]
theorem after_4 (c : Dev nD) (t : Fin cfg0.N) : (dats m 0 c).after 4 t = block m c 4 t := by dsimp only [dats]
theorem after_5 (c : Dev nD) (t : Fin cfg0.N) : (dats m 0 c).after 5 t
    = resultBlock (block m c 0 t) (block m c 1 t) (block m c 2 t) (block m c 3 t) (block m c 4 t) := by dsimp only [dats]

theorem before_0 (c : Dev nD) (t : Fin cfg0.N) (d) : (dats m 0 c).before 0 t d = block m c 0 t :=
  found_0 m (dats m 0 c) (arrays_at_entry m c 0) (after_0 m c) t d
theorem before_1 (c : Dev nD) (t : Fin cfg0.N) (d) : (dats m 0 c).before 1 t d = block m c 1 t :=
  found_1 m (dats m 0 c) (arrays_at_entry m c 1) (after_1 m c) t d
theorem before_2 (c : Dev nD) (t : Fin cfg0.N) (d) : (dats m 0 c).before 2 t d = block m c 2 t :=
  found_2 m (dats m 0 c) (arrays_at_entry m c 2) (after_2 m c) t d
theorem before_3 (c : Dev nD) (t : Fin cfg0.N) (d) : (dats m 0 c).before 3 t d = block m c 3 t :=
  found_3 m (dats m 0 c) (arrays_at_entry m c 3) (after_3 m c) t d
theorem before_4 (c : Dev nD) (t : Fin cfg0.N) (d) : (dats m 0 c).before 4 t d = block m c 4 t :=
  found_4 m (dats m 0 c) (arrays_at_entry m c 4) (after_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so `body_triple` applies; the invariant and the
    core's `owes` pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (block m c 0 t) (block m c 1 t) (block m c 2 t) (block m c 3 t) (block m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact body_at_point m c t

/-! ## The run and the frame -/

set_option backward.isDefEq.respectTransparency.types false in
/-- From any memory with zero counters every weakly fair execution of @main terminates, and every final state has
    every array of the pipeline at what the library computes from the proof data and every other unscoped buffer as the
    region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_reaches_region m Variants.none) (hA := arrays_at_entry m) (hΦ := fun _ _ => rfl)

/-- The frame claim's post from the run's: the node features and the root weights are staged inputs, which the
    pipeline only reads; the other four arguments no window stages; each is then as launched, no host operation
    having written it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans ((arrays_at_entry m c 0).trans (entry_arg0 m c))),
     ((h c).2 main_arg1 (Pipeline.mem_restRefs_of main_arg1 (by decide) (by decide))).trans (entry_arg1 m c),
     ((h c).2 main_arg2 (Pipeline.mem_restRefs_of main_arg2 (by decide) (by decide))).trans (entry_arg2 m c),
     ((h c).2 main_arg3 (Pipeline.mem_restRefs_of main_arg3 (by decide) (by decide))).trans (entry_arg3 m c),
     ((h c).1 2).trans (((dats m 0 c).arrAt_in 2 rfl _).trans ((arrays_at_entry m c 2).trans (entry_arg4 m c))),
     ((h c).2 main_arg5 (Pipeline.mem_restRefs_of main_arg5 (by decide) (by decide))).trans (entry_arg5 m c)⟩) (run_main m ρ)

end Cert.Kernel.Region

end
-- ==== Proof.EntryI.lean ====
/-
  The arrays as the one region of `KernelIdeal`'s @main finds them.

  @main is 184 host operations followed by the region. Every host operation is a pure function of buffers written
  before it into a buffer of its own, so when the region is entered each buffer holds the fold of those operations over
  the launch memory (`entry`). No operation writes an argument array, so the six arguments are found as launched; that
  is the whole content of the frame claim on the host side.
-/
import proofs.«152529_j70617852281332_1_alg».proof.Proof.Gen.KernelIdeal.Launch
import Idealize.ShloMosaic.Lib.Pipeline.FrameBody

set_option maxRecDepth 16384

noncomputable section

namespace Cert.KernelIdeal.Region

open Idealize.ShloMosaic Idealize.ShloMosaic.TcCoe
open Idealize.SL Idealize.SL.RA Idealize.SL.BI
open scoped Idealize.SL.BI
open Idealize.SL.BI.BIBase Idealize.SL.Sem
open Cert.KernelIdeal Cert.KernelIdeal.Gen

variable {F : FTy → Type} [FloatOps F]
variable (m : (ℓ : Loc nD τ sig) → Buf (Elt F) ℓ)

/-- Core `c`'s buffers when the region is entered: the host operations folded over the launch memory. -/
abbrev entry (c : Dev nD) (b : Ref sig .tc) : Buf (Elt F) ((c : Thread nD τ).loc b) :=
  StableHlo.after hostOps0 (fun b => m (c, b)) b

/-- No host operation allocates. -/
theorem hostOps_allocate_nothing : (hostOps0 : List (HloOp τ sig (Elt F))).Forall fun op => op.fresh = ∅ := by
  simp only [List.Forall]; repeat' constructor

/-- @main is the host operations, then the region, entered at `entry`. -/
theorem main_reaches_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps_allocate_nothing main_chain

/-- A buffer no host operation writes is found as launched. The hypothesis is decided per operation. -/
theorem entry_of_unwritten (c : Dev nD) (b : Ref sig .tc)
    (h : ∀ op ∈ (hostOps0 : List (HloOp τ sig (Elt F))), Proc.devRef .tc b ∉ op.writes) :
    entry m c b = m ((c : Thread nD τ).loc b) :=
  StableHlo.after_of_forall_not_mem (b := Proc.devRef .tc b) _ _ h

/-- No host operation writes `main_arg0`: the region finds it as launched. -/
theorem entry_arg0 (c : Dev nD) : entry m c main_arg0 = m ((c : Thread nD τ).loc main_arg0) :=
  entry_of_unwritten m c main_arg0 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation writes `main_arg1`: the region finds it as launched. -/
theorem entry_arg1 (c : Dev nD) : entry m c main_arg1 = m ((c : Thread nD τ).loc main_arg1) :=
  entry_of_unwritten m c main_arg1 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation writes `main_arg2`: the region finds it as launched. -/
theorem entry_arg2 (c : Dev nD) : entry m c main_arg2 = m ((c : Thread nD τ).loc main_arg2) :=
  entry_of_unwritten m c main_arg2 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation writes `main_arg3`: the region finds it as launched. -/
theorem entry_arg3 (c : Dev nD) : entry m c main_arg3 = m ((c : Thread nD τ).loc main_arg3) :=
  entry_of_unwritten m c main_arg3 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation writes `main_arg4`: the region finds it as launched. -/
theorem entry_arg4 (c : Dev nD) : entry m c main_arg4 = m ((c : Thread nD τ).loc main_arg4) :=
  entry_of_unwritten m c main_arg4 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- No host operation writes `main_arg5`: the region finds it as launched. -/
theorem entry_arg5 (c : Dev nD) : entry m c main_arg5 = m ((c : Thread nD τ).loc main_arg5) :=
  entry_of_unwritten m c main_arg5 (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

end Cert.KernelIdeal.Region

end
-- ==== Proof.StagedI.lean ====
/-
  What the five input windows' arrays hold when the region of `KernelIdeal`'s @main is entered, as terms of the six
  arguments.

  Two windows stage arguments (the node features and the root weights). The stacked relation weights and the bias row
  are reshapes of arguments. The stacked means are the concatenation, along the feature axis, of the eight per-relation
  means; the host computes each of them by the very operations the reference computes its own by (gather the sources'
  rows, mask by relation, scatter-add into the targets' rows, divide by the clamped count), so each is the reference's
  stage function of the same three arguments — which is all this proof ever needs to know about a mean.

  The host operations are read in two stretches: everything up to the concatenation, and the last three (the
  concatenation and the two reshapes), so that the concatenation is read once over the eight buffers as the first
  stretch leaves them, and each of those buffers on its own.
-/
import proofs.«152529_j70617852281332_1_alg».proof.Proof.EntryI
import proofs.«152529_j70617852281332_1_alg».proof.Proof.Gen.ReferenceIdeal.Read
import Idealize.ShloMosaic.Lib.StableHlo.Run

set_option maxRecDepth 16384

noncomputable section

namespace Cert.KernelIdeal.Region

open Idealize.ShloMosaic Idealize.ShloMosaic.TcCoe Idealize.SL.Sem Idealize.ShloMosaic.StableHlo
open Cert.KernelIdeal Cert.KernelIdeal.Gen

/-- Running two stretches of host operations is running the first, then the second from what it left. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

variable (m : (ℓ : Loc nD τ sig) → Buf (Elt Ideal) ℓ)

/-! ## The eight means -/

set_option maxHeartbeats 400000000 in
/-- Relation 0's mean is the reference's, of the same arguments. -/
theorem entry_mean0 (c : Dev nD) :
    entry m c main_v27 = Cert.ReferenceIdeal.Read.val_main_v31 (F := Ideal) (m ((c : Thread nD τ).loc main_arg0)) (m ((c : Thread nD τ).loc main_arg1)) (m ((c : Thread nD τ).loc main_arg2)) := by
  dsimp only [entry]
  after_results_simp <;> rfl

set_option maxHeartbeats 400000000 in
/-- Relation 1's mean is the reference's, of the same arguments. -/
theorem entry_mean1 (c : Dev nD) :
    entry m c main_v44 = Cert.ReferenceIdeal.Read.val_main_v52 (F := Ideal) (m ((c : Thread nD τ).loc main_arg0)) (m ((c : Thread nD τ).loc main_arg1)) (m ((c : Thread nD τ).loc main_arg2)) := by
  dsimp only [entry]
  after_results_simp <;> rfl

set_option maxHeartbeats 400000000 in
/-- Relation 2's mean is the reference's, of the same arguments. -/
theorem entry_mean2 (c : Dev nD) :
    entry m c main_v61 = Cert.ReferenceIdeal.Read.val_main_v73 (F := Ideal) (m ((c : Thread nD τ).loc main_arg0)) (m ((c : Thread nD τ).loc main_arg1)) (m ((c : Thread nD τ).loc main_arg2)) := by
  dsimp only [entry]
  after_results_simp <;> rfl

set_option maxHeartbeats 400000000 in
/-- Relation 3's mean is the reference's, of the same arguments. -/
theorem entry_mean3 (c : Dev nD) :
    entry m c main_v78 = Cert.ReferenceIdeal.Read.val_main_v94 (F := Ideal) (m ((c : Thread nD τ).loc main_arg0)) (m ((c : Thread nD τ).loc main_arg1)) (m ((c : Thread nD τ).loc main_arg2)) := by
  dsimp only [entry]
  after_results_simp <;> rfl

set_option maxHeartbeats 400000000 in
/-- Relation 4's mean is the reference's, of the same arguments. -/
theorem entry_mean4 (c : Dev nD) :
    entry m c main_v95 = Cert.ReferenceIdeal.Read.val_main_v115 (F := Ideal) (m ((c : Thread nD τ).loc main_arg0)) (m ((c : Thread nD τ).loc main_arg1)) (m ((c : Thread nD τ).loc main_arg2)) := by
  dsimp only [entry]
  after_results_simp <;> rfl

set_option maxHeartbeats 400000000 in
/-- Relation 5's mean is the reference's, of the same arguments. -/
theorem entry_mean5 (c : Dev nD) :
    entry m c main_v112 = Cert.ReferenceIdeal.Read.val_main_v136 (F := Ideal) (m ((c : Thread nD τ).loc main_arg0)) (m ((c : Thread nD τ).loc main_arg1)) (m ((c : Thread nD τ).loc main_arg2)) := by
  dsimp only [entry]
  after_results_simp <;> rfl

set_option maxHeartbeats 400000000 in
/-- Relation 6's mean is the reference's, of the same arguments. -/
theorem entry_mean6 (c : Dev nD) :
    entry m c main_v129 = Cert.ReferenceIdeal.Read.val_main_v157 (F := Ideal) (m ((c : Thread nD τ).loc main_arg0)) (m ((c : Thread nD τ).loc main_arg1)) (m ((c : Thread nD τ).loc main_arg2)) := by
  dsimp only [entry]
  after_results_simp <;> rfl

set_option maxHeartbeats 400000000 in
/-- Relation 7's mean is the reference's, of the same arguments. -/
theorem entry_mean7 (c : Dev nD) :
    entry m c main_v146 = Cert.ReferenceIdeal.Read.val_main_v178 (F := Ideal) (m ((c : Thread nD τ).loc main_arg0)) (m ((c : Thread nD τ).loc main_arg1)) (m ((c : Thread nD τ).loc main_arg2)) := by
  dsimp only [entry]
  after_results_simp <;> rfl

/-! ## The two reshapes -/

set_option maxHeartbeats 40000000 in
/-- The stacked relation weights are the relation weights, reshaped. -/
theorem entry_stackedWeights (c : Dev nD) :
    entry m c main_v148 = shapeCast S512x64 (m ((c : Thread nD τ).loc main_arg3)) Facts₀.shapeCasts_S8x64x64_S512x64 := by
  dsimp only [entry]
  after_results_simp <;> rfl

set_option maxHeartbeats 40000000 in
/-- The bias row is the bias, reshaped. -/
theorem entry_biasRow (c : Dev nD) :
    entry m c main_v149 = shapeCast S1x64 (m ((c : Thread nD τ).loc main_arg5)) Facts₀.shapeCasts_S64_S1x64 := by
  dsimp only [entry]
  after_results_simp <;> rfl

end Cert.KernelIdeal.Region

end
-- ==== Proof.StackI.lean ====
/-
  The second window's array at the region's entry is the eight per-relation means side by side.

  The last three host operations are the concatenation of the eight means and the two reshapes; none of them writes a
  mean's buffer, so each mean at the region's entry is what the operations before them left, and the concatenation is
  read once over those eight buffers.
-/
import proofs.«152529_j70617852281332_1_alg».proof.Proof.StagedI

set_option maxRecDepth 16384

noncomputable section

namespace Cert.KernelIdeal.Region

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- Relation `r`'s mean of the sources' features over each target node, as the reference computes it. -/
def relMean (x : S100000x64.Idx → EReal) (e : S2x1600000.Idx → BitVec 32) (ty : S1600000.Idx → BitVec 32) :
    Fin 8 → S100000x64.Idx → EReal
  | ⟨0, _⟩ => Cert.ReferenceIdeal.Read.val_main_v31 (F := Ideal) x e ty
  | ⟨1, _⟩ => Cert.ReferenceIdeal.Read.val_main_v52 (F := Ideal) x e ty
  | ⟨2, _⟩ => Cert.ReferenceIdeal.Read.val_main_v73 (F := Ideal) x e ty
  | ⟨3, _⟩ => Cert.ReferenceIdeal.Read.val_main_v94 (F := Ideal) x e ty
  | ⟨4, _⟩ => Cert.ReferenceIdeal.Read.val_main_v115 (F := Ideal) x e ty
  | ⟨5, _⟩ => Cert.ReferenceIdeal.Read.val_main_v136 (F := Ideal) x e ty
  | ⟨6, _⟩ => Cert.ReferenceIdeal.Read.val_main_v157 (F := Ideal) x e ty
  | ⟨7, _⟩ => Cert.ReferenceIdeal.Read.val_main_v178 (F := Ideal) x e ty

/-- The eight means side by side: column `64·r + d` is relation `r`'s column `d`. -/
def stackedMeans (x : S100000x64.Idx → EReal) (e : S2x1600000.Idx → BitVec 32) (ty : S1600000.Idx → BitVec 32) :
    S100000x512.Idx → EReal :=
  concatenate S100000x512 1 [⟨S100000x64, relMean x e ty 0⟩, ⟨S100000x64, relMean x e ty 1⟩, ⟨S100000x64, relMean x e ty 2⟩, ⟨S100000x64, relMean x e ty 3⟩, ⟨S100000x64, relMean x e ty 4⟩, ⟨S100000x64, relMean x e ty 5⟩, ⟨S100000x64, relMean x e ty 6⟩, ⟨S100000x64, relMean x e ty 7⟩]
    Facts₀.concatenates_S100000x64_S100000x64_S100000x64_S100000x64_S100000x64_S100000x64_S100000x64_S100000x64_S100000x512_d1

/-- The last three host operations: the concatenation of the eight means, and the two reshapes. -/
def lastThree : List (HloOp τ sig (Elt Ideal)) :=
  [ StableHlo.nary ![main_v27, main_v44, main_v61, main_v78, main_v95, main_v112, main_v129, main_v146] main_v147 (fun u => concatenate S100000x512 1 [⟨S100000x64, u 0⟩, ⟨S100000x64, u 1⟩, ⟨S100000x64, u 2⟩, ⟨S100000x64, u 3⟩, ⟨S100000x64, u 4⟩, ⟨S100000x64, u 5⟩, ⟨S100000x64, u 6⟩, ⟨S100000x64, u 7⟩] Facts₀.concatenates_S100000x64_S100000x64_S100000x64_S100000x64_S100000x64_S100000x64_S100000x64_S100000x64_S100000x512_d1),
    StableHlo.reshape main_arg3 main_v148 rfl Facts₀.shapeCasts_S8x64x64_S512x64,
    StableHlo.reshape main_arg5 main_v149 rfl Facts₀.shapeCasts_S64_S1x64 ]

/-- The host operations before them. -/
def stem : List (HloOp τ sig (Elt Ideal)) := (hostOps0 (F := Ideal)).take 181

theorem drop_is_lastThree : (hostOps0 (F := Ideal)).drop 181 = lastThree := by rfl

theorem hostOps_split : (hostOps0 : List (HloOp τ sig (Elt Ideal))) = stem ++ lastThree := by
  rw [← drop_is_lastThree]; exact (List.take_append_drop 181 _).symm

/-- The region's entry, read in the two stretches. -/
theorem entry_split (c : Dev nD) (b : Ref sig .tc) :
    entry m c b = after lastThree (after stem (fun b => m (c, b))) (Proc.devRef .tc b) := by
  show after hostOps0 (fun b => m (c, b)) (Proc.devRef .tc b) = _
  rw [hostOps_split, after_append]

/-- A buffer the last three operations do not write is, at the region's entry, what the first stretch left. -/
theorem entry_before_stacking (c : Dev nD) (b : Ref sig .tc) (h1 : b ≠ main_v147) (h2 : b ≠ main_v148) (h3 : b ≠ main_v149) :
    after stem (fun b => m (c, b)) (Proc.devRef .tc b) = entry m c b := by
  rw [entry_split]; unfold lastThree
  simp only [after_cons, after_nil]
  rw [reshape_result_ne (h := h3), reshape_result_ne (h := h2), nary_result_ne (h := h1)]

/-- The second window's array is the stacked means of the arguments. -/
theorem entry_stackedMeans (c : Dev nD) :
    entry m c main_v147 = stackedMeans (m ((c : Thread nD τ).loc main_arg0)) (m ((c : Thread nD τ).loc main_arg1)) (m ((c : Thread nD τ).loc main_arg2)) := by
  rw [entry_split]; unfold lastThree
  simp only [after_cons, after_nil]
  rw [reshape_result_ne (h := by decide), reshape_result_ne (h := by decide), nary_result]
  show concatenate S100000x512 1 [⟨S100000x64, after stem (fun b => m (c, b)) (Proc.devRef .tc main_v27)⟩, ⟨S100000x64, after stem (fun b => m (c, b)) (Proc.devRef .tc main_v44)⟩, ⟨S100000x64, after stem (fun b => m (c, b)) (Proc.devRef .tc main_v61)⟩, ⟨S100000x64, after stem (fun b => m (c, b)) (Proc.devRef .tc main_v78)⟩, ⟨S100000x64, after stem (fun b => m (c, b)) (Proc.devRef .tc main_v95)⟩, ⟨S100000x64, after stem (fun b => m (c, b)) (Proc.devRef .tc main_v112)⟩, ⟨S100000x64, after stem (fun b => m (c, b)) (Proc.devRef .tc main_v129)⟩, ⟨S100000x64, after stem (fun b => m (c, b)) (Proc.devRef .tc main_v146)⟩] Facts₀.concatenates_S100000x64_S100000x64_S100000x64_S100000x64_S100000x64_S100000x64_S100000x64_S100000x64_S100000x512_d1 = _
  rw [entry_before_stacking m c main_v27 (by decide) (by decide) (by decide), entry_mean0,
    entry_before_stacking m c main_v44 (by decide) (by decide) (by decide), entry_mean1,
    entry_before_stacking m c main_v61 (by decide) (by decide) (by decide), entry_mean2,
    entry_before_stacking m c main_v78 (by decide) (by decide) (by decide), entry_mean3,
    entry_before_stacking m c main_v95 (by decide) (by decide) (by decide), entry_mean4,
    entry_before_stacking m c main_v112 (by decide) (by decide) (by decide), entry_mean5,
    entry_before_stacking m c main_v129 (by decide) (by decide) (by decide), entry_mean6,
    entry_before_stacking m c main_v146 (by decide) (by decide) (by decide), entry_mean7]
  rfl

end Cert.KernelIdeal.Region

end
-- ==== Proof.FrameI.lean ====
/-
  The frame of `KernelIdeal`: what the region's body leaves at each grid point, and the run of @main.

  The grid has 25 points. Point `t` stages rows 4000·t … 4000·t + 3999 of the node features and of the stacked
  per-relation means, and the whole of the root weights, the stacked relation weights and the bias row; it writes rows
  4000·t … 4000·t + 3999 of the result. The body loads the five input blocks whole, computes one value of them — the
  skeleton's payload: root product plus stacked product plus bias, clamped below at zero — and stores it over the whole
  output block. So after the body the output buffer holds that payload of the input blocks, whatever it held before,
  and every input buffer holds what it held. With the arrays at the region's entry (`entry`) that is the proof data of
  the library's frame run; the frame claim reads the six argument arrays off its post.
-/
import proofs.«152529_j70617852281332_1_alg».proof.Proof.EntryI
import proofs.«152529_j70617852281332_1_alg».proof.Proof.Gen.KernelIdeal.Skeleton
import proofs.«152529_j70617852281332_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

/-- Window `w`'s block at point `t`, read off its array as the region finds it. -/
def block (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds its block at every point, fetched there or not: where it is not
    fetched its block index has not moved since the point that fetched it, and the body leaves the buffer as found. -/
theorem found_0 {c : Dev nD} (dat : Dat τ (Elt F) Unit ℕ (UR sig nD τ) ℕ cfg0 c) (hA : dat.A 0 = entry m c (Pipeline.arrRef spec0 0))
    (hafter : ∀ t, dat.after 0 t = block m c 0 t) (t : Fin cfg0.N) (d) : dat.before 0 t d = block m c 0 t :=
  (dat.before_in_eq_fetched 0 rfl (fun _ => rfl) (fun _ _ _ => rfl) (fun t => by rw [hafter]; unfold Dat.blockOf block; rw [hA]; try rfl) t d).trans
    (by unfold Dat.fetched Dat.blockOf block; rw [hA]; try rfl)
/-- Input window 1's current staging buffer holds its block at every point, fetched there or not: where it is not
    fetched its block index has not moved since the point that fetched it, and the body leaves the buffer as found. -/
theorem found_1 {c : Dev nD} (dat : Dat τ (Elt F) Unit ℕ (UR sig nD τ) ℕ cfg0 c) (hA : dat.A 1 = entry m c (Pipeline.arrRef spec0 1))
    (hafter : ∀ t, dat.after 1 t = block m c 1 t) (t : Fin cfg0.N) (d) : dat.before 1 t d = block m c 1 t :=
  (dat.before_in_eq_fetched 1 rfl (fun _ => rfl) (fun _ _ _ => rfl) (fun t => by rw [hafter]; unfold Dat.blockOf block; rw [hA]; try rfl) t d).trans
    (by unfold Dat.fetched Dat.blockOf block; rw [hA]; try rfl)
/-- Input window 2's current staging buffer holds its block at every point, fetched there or not: where it is not
    fetched its block index has not moved since the point that fetched it, and the body leaves the buffer as found. -/
theorem found_2 {c : Dev nD} (dat : Dat τ (Elt F) Unit ℕ (UR sig nD τ) ℕ cfg0 c) (hA : dat.A 2 = entry m c (Pipeline.arrRef spec0 2))
    (hafter : ∀ t, dat.after 2 t = block m c 2 t) (t : Fin cfg0.N) (d) : dat.before 2 t d = block m c 2 t :=
  (dat.before_in_eq_fetched 2 rfl (fun _ => rfl) (fun _ _ _ => rfl) (fun t => by rw [hafter]; unfold Dat.blockOf block; rw [hA]; try rfl) t d).trans
    (by unfold Dat.fetched Dat.blockOf block; rw [hA]; try rfl)
/-- Input window 3's current staging buffer holds its block at every point, fetched there or not: where it is not
    fetched its block index has not moved since the point that fetched it, and the body leaves the buffer as found. -/
theorem found_3 {c : Dev nD} (dat : Dat τ (Elt F) Unit ℕ (UR sig nD τ) ℕ cfg0 c) (hA : dat.A 3 = entry m c (Pipeline.arrRef spec0 3))
    (hafter : ∀ t, dat.after 3 t = block m c 3 t) (t : Fin cfg0.N) (d) : dat.before 3 t d = block m c 3 t :=
  (dat.before_in_eq_fetched 3 rfl (fun _ => rfl) (fun _ _ _ => rfl) (fun t => by rw [hafter]; unfold Dat.blockOf block; rw [hA]; try rfl) t d).trans
    (by unfold Dat.fetched Dat.blockOf block; rw [hA]; try rfl)
/-- Input window 4's current staging buffer holds its block at every point, fetched there or not: where it is not
    fetched its block index has not moved since the point that fetched it, and the body leaves the buffer as found. -/
theorem found_4 {c : Dev nD} (dat : Dat τ (Elt F) Unit ℕ (UR sig nD τ) ℕ cfg0 c) (hA : dat.A 4 = entry m c (Pipeline.arrRef spec0 4))
    (hafter : ∀ t, dat.after 4 t = block m c 4 t) (t : Fin cfg0.N) (d) : dat.before 4 t d = block m c 4 t :=
  (dat.before_in_eq_fetched 4 rfl (fun _ => rfl) (fun _ _ _ => rfl) (fun t => by rw [hafter]; unfold Dat.blockOf block; rw [hA]; try rfl) t d).trans
    (by unfold Dat.fetched Dat.blockOf block; rw [hA]; try rfl)

/-! ## What the body leaves in the output buffer -/

/-- The whole of each staging buffer, as the body's loads and its one store address it. -/
abbrev allX : Rect S4000x64 := Rect.unit (s := S4000x64) ![0, 0] S4000x64.size inb_S4000x64_S4000x64_0_0
abbrev allMeans : Rect S4000x512 := Rect.unit (s := S4000x512) ![0, 0] S4000x512.size inb_S4000x512_S4000x512_0_0
abbrev allRoot : Rect S64x64 := Rect.unit (s := S64x64) ![0, 0] S64x64.size inb_S64x64_S64x64_0_0
abbrev allStack : Rect S512x64 := Rect.unit (s := S512x64) ![0, 0] S512x64.size inb_S512x64_S512x64_0_0
abbrev allBias : Rect S1x64 := Rect.unit (s := S1x64) ![0, 0] S1x64.size inb_S1x64_S1x64_0_0

/-- The output buffer after the body, from the five input blocks: its one store, over the payload of the loads. -/
def resultBlock (x0 : Vec F S4000x64 .f32) (x1 : Vec F S4000x512 .f32) (x2 : Vec F S64x64 .f32) (x3 : Vec F S512x64 .f32) (x4 : Vec F S1x64 .f32) : Vec F S4000x64 .f32 :=
  View.canon [⟨allX, k0_pay1 (View.ld x0 allX) (View.ld x1 allMeans) (View.ld x2 allRoot) (View.ld x3 allStack) (View.ld x4 allBias)⟩]

/-- The one store covers the buffer. -/
theorem store_covers (p0 : Vec F S4000x64 .f32) (y : S4000x64.Idx) :
    ∃ pc ∈ ([⟨allX, p0⟩] : List (View.Piece (Elt F) S4000x64 .f32)), y ∈ pc.1.set :=
  View.cover_of_tiled [⟨allX, p0⟩] S4000x64.size (by rfl) y

/-! ## The body's triple -/

set_option maxHeartbeats 4000000 in
/-- The body on whole staging memrefs, the inputs' at read contents `xW` and the output's at anything, runs to the
    continuation holding the inputs' as they were and the output's at `resultBlock` of the inputs'. -/
theorem body_triple (c : Dev nD) (E : Set ℕ) (i : grid0.Coords)
    (a1 : Memref sig .tc .vmem S4000x64 .f32) (h1 : a1.IsWhole) (a2 : Memref sig .tc .vmem S4000x512 .f32) (h2 : a2.IsWhole)
    (a3 : Memref sig .tc .vmem S64x64 .f32) (h3 : a3.IsWhole) (a4 : Memref sig .tc .vmem S512x64 .f32) (h4 : a4.IsWhole)
    (a5 : Memref sig .tc .vmem S1x64 .f32) (h5 : a5.IsWhole) (a6 : Memref sig .tc .vmem S4000x64 .f32) (h6 : a6.IsWhole)
    (x0 : Vec F S4000x64 .f32) (x1 : Vec F S4000x512 .f32) (x2 : Vec F S64x64 .f32) (x3 : Vec F S512x64 .f32) (x4 : Vec F S1x64 .f32)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ (∃ d, owns (c : Thread nD τ) a6 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (resultBlock x0 x1 x2 x3 x4)) -∗ K ⟨⟩))
      ⊢ wp frame (wpE (defs₀ (F := F)) Variants.none c none) E (cc0__combine_kernel i a1 h1 a2 h2 a3 h3 a4 h4 a5 h5 a6 h6) K := by
  simp only [cc0__combine_kernel_eq_skeleton]; unfold cc0__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (store_covers _)

/-! ## The proof data -/

/-- The proof data of the pipeline on core `c`: the arrays as the region finds them; after the body at point `t` each
    input's buffer at its block and the output's at `resultBlock` of the input blocks; the invariant the scoped rest and
    the generator register, untouched; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => block m c 0 t
    | ⟨1, _⟩ => block m c 1 t
    | ⟨2, _⟩ => block m c 2 t
    | ⟨3, _⟩ => block m c 3 t
    | ⟨4, _⟩ => block m c 4 t
    | ⟨5, _⟩ => resultBlock (block m c 0 t) (block m c 1 t) (block m c 2 t) (block m c 3 t) (block m c 4 t)
  Φ _ := Pipeline.ΦA spec0 c
  q _ := fullShare
  owed _ := 0

/-- The proof data's arrays are the region-entry contents. -/
theorem arrays_at_entry (c : Dev nD) (w : Fin cfg0.W) : (dats m 0 c).A w = entry m c (Pipeline.arrRef spec0 w) := by
  dsimp only [dats]

theorem after_0 (c : Dev nD) (t : Fin cfg0.N) : (dats m 0 c).after 0 t = block m c 0 t := by dsimp only [dats]
theorem after_1 (c : Dev nD) (t : Fin cfg0.N) : (dats m 0 c).after 1 t = block m c 1 t := by dsimp only [dats]
theorem after_2 (c : Dev nD) (t : Fin cfg0.N) : (dats m 0 c).after 2 t = block m c 2 t := by dsimp only [dats]
theorem after_3 (c : Dev nD) (t : Fin cfg0.N) : (dats m 0 c).after 3 t = block m c 3 t := by dsimp only [dats]
theorem after_4 (c : Dev nD) (t : Fin cfg0.N) : (dats m 0 c).after 4 t = block m c 4 t := by dsimp only [dats]
theorem after_5 (c : Dev nD) (t : Fin cfg0.N) : (dats m 0 c).after 5 t
    = resultBlock (block m c 0 t) (block m c 1 t) (block m c 2 t) (block m c 3 t) (block m c 4 t) := by dsimp only [dats]

theorem before_0 (c : Dev nD) (t : Fin cfg0.N) (d) : (dats m 0 c).before 0 t d = block m c 0 t :=
  found_0 m (dats m 0 c) (arrays_at_entry m c 0) (after_0 m c) t d
theorem before_1 (c : Dev nD) (t : Fin cfg0.N) (d) : (dats m 0 c).before 1 t d = block m c 1 t :=
  found_1 m (dats m 0 c) (arrays_at_entry m c 1) (after_1 m c) t d
theorem before_2 (c : Dev nD) (t : Fin cfg0.N) (d) : (dats m 0 c).before 2 t d = block m c 2 t :=
  found_2 m (dats m 0 c) (arrays_at_entry m c 2) (after_2 m c) t d
theorem before_3 (c : Dev nD) (t : Fin cfg0.N) (d) : (dats m 0 c).before 3 t d = block m c 3 t :=
  found_3 m (dats m 0 c) (arrays_at_entry m c 3) (after_3 m c) t d
theorem before_4 (c : Dev nD) (t : Fin cfg0.N) (d) : (dats m 0 c).before 4 t d = block m c 4 t :=
  found_4 m (dats m 0 c) (arrays_at_entry m c 4) (after_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so `body_triple` applies; the invariant and the
    core's `owes` pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (block m c 0 t) (block m c 1 t) (block m c 2 t) (block m c 3 t) (block m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact body_at_point m c t

/-! ## The run and the frame -/

set_option backward.isDefEq.respectTransparency.types false in
/-- From any memory with zero counters every weakly fair execution of @main terminates, and every final state has
    every array of the pipeline at what the library computes from the proof data and every other unscoped buffer as the
    region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_reaches_region m Variants.none) (hA := arrays_at_entry m) (hΦ := fun _ _ => rfl)

/-- The frame claim's post from the run's: the node features and the root weights are staged inputs, which the
    pipeline only reads; the other four arguments no window stages; each is then as launched, no host operation
    having written it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans ((arrays_at_entry m c 0).trans (entry_arg0 m c))),
     ((h c).2 main_arg1 (Pipeline.mem_restRefs_of main_arg1 (by decide) (by decide))).trans (entry_arg1 m c),
     ((h c).2 main_arg2 (Pipeline.mem_restRefs_of main_arg2 (by decide) (by decide))).trans (entry_arg2 m c),
     ((h c).2 main_arg3 (Pipeline.mem_restRefs_of main_arg3 (by decide) (by decide))).trans (entry_arg3 m c),
     ((h c).1 2).trans (((dats m 0 c).arrAt_in 2 rfl _).trans ((arrays_at_entry m c 2).trans (entry_arg4 m c))),
     ((h c).2 main_arg5 (Pipeline.mem_restRefs_of main_arg5 (by decide) (by decide))).trans (entry_arg5 m c)⟩) (run_main m ρ)

end Cert.KernelIdeal.Region

end
-- ==== Proof.PayI.lean ====
/-
  The body's one stored value, entry by entry, at the ideal instance.

  Entry (p, q) of the value the body stores is
      max ( Σ_k x[p,k]·Wroot[k,q]  +  Σ_k means[p,k]·Wstack[k,q]  +  bias[0,q] ,  0 )
  over the blocks the body loaded: each matrix product into a zero accumulator is the plain sum over its shared axis,
  the narrowing of the operands to bf16 is the identity on extended reals, and the bias row is repeated down the rows.
-/
import proofs.«152529_j70617852281332_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Region

open Idealize.ShloMosaic Idealize.ShloMosaic.ValueIdx
open Cert.KernelIdeal Cert.KernelIdeal.Gen

/-! ### The root product: a [4000, 64] block by the [64, 64] root weights -/

theorem rootProduct_l0 (i : S4000x64.Idx) (κ : dot_S4000x64_S64x64_S4000x64_1_0_0_1_n_n.contr.Idx) :
    (dot_S4000x64_S64x64_S4000x64_1_0_0_1_n_n.lhsIdx i κ 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem rootProduct_l1 (i : S4000x64.Idx) (κ : dot_S4000x64_S64x64_S4000x64_1_0_0_1_n_n.contr.Idx) :
    (dot_S4000x64_S64x64_S4000x64_1_0_0_1_n_n.lhsIdx i κ 1).val = (κ ⟨0, by decide⟩).val :=
  dot_S4000x64_S64x64_S4000x64_1_0_0_1_n_n.lhsIdx_val_of_single rfl i κ
theorem rootProduct_r0 (i : S4000x64.Idx) (κ : dot_S4000x64_S64x64_S4000x64_1_0_0_1_n_n.contr.Idx) :
    (dot_S4000x64_S64x64_S4000x64_1_0_0_1_n_n.rhsIdx i κ 0).val = (κ ⟨0, by decide⟩).val :=
  dot_S4000x64_S64x64_S4000x64_1_0_0_1_n_n.rhsIdx_val_of_single rfl i κ
theorem rootProduct_r1 (i : S4000x64.Idx) (κ : dot_S4000x64_S64x64_S4000x64_1_0_0_1_n_n.contr.Idx) :
    (dot_S4000x64_S64x64_S4000x64_1_0_0_1_n_n.rhsIdx i κ 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- Entry (p, q) of the product into a zero accumulator is the sum over the shared axis of row p times column q. -/
theorem rootProduct_apply {φ₁ φ₂ : FTy} (a : FVec Ideal S4000x64 φ₁) (b : FVec Ideal S64x64 φ₂) (p : Fin 4000) (q : Fin 64) :
    matmul dot_S4000x64_S64x64_S4000x64_1_0_0_1_n_n none a b (constant (F := Ideal) S4000x64 .f32 0x00000000#32) (ix2 p q)
      = ∑ k : Fin 64, a (ix2 p k) * b (ix2 k q) := by
  show FloatOps.matmul dot_S4000x64_S64x64_S4000x64_1_0_0_1_n_n none a b (constant (F := Ideal) S4000x64 .f32 0x00000000#32) (ix2 p q) = _
  rw [Ideal.matmul_constant_zero_apply, ← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 p q) ((ValueIdx.contrEquiv1 dot_S4000x64_S64x64_S4000x64_1_0_0_1_n_n 64 rfl rfl).symm k) = ix2 p k := funext fun d => Fin.ext (by
    match d with
    | ⟨0, _⟩ => exact rootProduct_l0 _ _
    | ⟨1, _⟩ => exact (rootProduct_l1 _ _).trans hk)
  have er : dot_S4000x64_S64x64_S4000x64_1_0_0_1_n_n.rhsIdx (ix2 p q) ((ValueIdx.contrEquiv1 dot_S4000x64_S64x64_S4000x64_1_0_0_1_n_n 64 rfl rfl).symm k) = ix2 k q := funext fun d => Fin.ext (by
    match d with
    | ⟨0, _⟩ => exact (rootProduct_r0 _ _).trans hk
    | ⟨1, _⟩ => exact rootProduct_r1 _ _)
  rw [el, er]

/-! ### The stacked product: a [4000, 512] block of means by the [512, 64] stacked weights -/

theorem stackProduct_l0 (i : S4000x64.Idx) (κ : dot_S4000x512_S512x64_S4000x64_1_0_0_1_n_n.contr.Idx) :
    (dot_S4000x512_S512x64_S4000x64_1_0_0_1_n_n.lhsIdx i κ 0).val = (i 0).val := by
  unfold DotDims.lhsIdx
  rw [dif_neg (show ¬(0 : Fin S4000x512.rank) ∈ dot_S4000x512_S512x64_S4000x64_1_0_0_1_n_n.lhsBatch by decide), dif_pos (show (0 : Fin S4000x512.rank) ∈ dot_S4000x512_S512x64_S4000x64_1_0_0_1_n_n.lhsNonContracting by decide)]
  rfl
theorem stackProduct_l1 (i : S4000x64.Idx) (κ : dot_S4000x512_S512x64_S4000x64_1_0_0_1_n_n.contr.Idx) :
    (dot_S4000x512_S512x64_S4000x64_1_0_0_1_n_n.lhsIdx i κ 1).val = (κ ⟨0, by decide⟩).val :=
  dot_S4000x512_S512x64_S4000x64_1_0_0_1_n_n.lhsIdx_val_of_single rfl i κ
theorem stackProduct_r0 (i : S4000x64.Idx) (κ : dot_S4000x512_S512x64_S4000x64_1_0_0_1_n_n.contr.Idx) :
    (dot_S4000x512_S512x64_S4000x64_1_0_0_1_n_n.rhsIdx i κ 0).val = (κ ⟨0, by decide⟩).val :=
  dot_S4000x512_S512x64_S4000x64_1_0_0_1_n_n.rhsIdx_val_of_single rfl i κ
theorem stackProduct_r1 (i : S4000x64.Idx) (κ : dot_S4000x512_S512x64_S4000x64_1_0_0_1_n_n.contr.Idx) :
    (dot_S4000x512_S512x64_S4000x64_1_0_0_1_n_n.rhsIdx i κ 1).val = (i 1).val := by
  unfold DotDims.rhsIdx
  rw [dif_neg (show ¬(1 : Fin S512x64.rank) ∈ dot_S4000x512_S512x64_S4000x64_1_0_0_1_n_n.rhsBatch by decide), dif_pos (show (1 : Fin S512x64.rank) ∈ dot_S4000x512_S512x64_S4000x64_1_0_0_1_n_n.rhsNonContracting by decide)]
  rfl

/-- Entry (p, q) of the product into a zero accumulator is the sum over the shared axis of row p times column q. -/
theorem stackProduct_apply {φ₁ φ₂ : FTy} (a : FVec Ideal S4000x512 φ₁) (b : FVec Ideal S512x64 φ₂) (p : Fin 4000) (q : Fin 64) :
    matmul dot_S4000x512_S512x64_S4000x64_1_0_0_1_n_n none a b (constant (F := Ideal) S4000x64 .f32 0x00000000#32) (ix2 p q)
      = ∑ k : Fin 512, a (ix2 p k) * b (ix2 k q) := by
  show FloatOps.matmul dot_S4000x512_S512x64_S4000x64_1_0_0_1_n_n none a b (constant (F := Ideal) S4000x64 .f32 0x00000000#32) (ix2 p q) = _
  rw [Ideal.matmul_constant_zero_apply, ← Equiv.sum_comp (ValueIdx.contrEquiv1 dot_S4000x512_S512x64_S4000x64_1_0_0_1_n_n 512 rfl rfl).symm]
  refine Finset.sum_congr rfl fun k _ => ?_
  have hk := ValueIdx.contrEquiv1_symm_val dot_S4000x512_S512x64_S4000x64_1_0_0_1_n_n 512 rfl rfl k
  have el : dot_S4000x512_S512x64_S4000x64_1_0_0_1_n_n.lhsIdx (ix2 p q) ((ValueIdx.contrEquiv1 dot_S4000x512_S512x64_S4000x64_1_0_0_1_n_n 512 rfl rfl).symm k) = ix2 p k := funext fun d => Fin.ext (by
    match d with
    | ⟨0, _⟩ => exact stackProduct_l0 _ _
    | ⟨1, _⟩ => exact (stackProduct_l1 _ _).trans hk)
  have er : dot_S4000x512_S512x64_S4000x64_1_0_0_1_n_n.rhsIdx (ix2 p q) ((ValueIdx.contrEquiv1 dot_S4000x512_S512x64_S4000x64_1_0_0_1_n_n 512 rfl rfl).symm k) = ix2 k q := funext fun d => Fin.ext (by
    match d with
    | ⟨0, _⟩ => exact (stackProduct_r0 _ _).trans hk
    | ⟨1, _⟩ => exact stackProduct_r1 _ _)
  rw [el, er]

/-- The bias row repeated down the rows: entry (p, q) is the row's entry q. -/
theorem biasRows_apply (b : FVec Ideal S1x64 .f32) (p : Fin 4000) (q : Fin 64) :
    broadcastTo S4000x64 (shapeCast S1x64 b Facts₀.shapeCasts_S1x64_S1x64) Facts₀.broadcasts_S1x64_S4000x64 (ix2 p q) = b (ix2 (0 : Fin 1) q) := by
  rw [shapeCast_self]
  exact broadcastTo_apply b _ (ix2 p q) (ix2 (0 : Fin 1) q) (fun d => match d with
    | ⟨0, _⟩ => by show 0 = if (1 : Nat) = 1 then 0 else _; rw [if_pos rfl]
    | ⟨1, _⟩ => by show q.val = if (64 : Nat) = 1 then 0 else _; rw [if_neg (by decide)]; rfl)

/-- The stored value at (p, q). -/
theorem payload_apply (x0 : Vec Ideal S4000x64 .f32) (x1 : Vec Ideal S4000x512 .f32) (x2 : Vec Ideal S64x64 .f32)
    (x3 : Vec Ideal S512x64 .f32) (x4 : Vec Ideal S1x64 .f32) (p : Fin 4000) (q : Fin 64) :
    k0_pay1 (F := Ideal) x0 x1 x2 x3 x4 (ix2 p q)
      = max (((∑ k : Fin 64, x0 (ix2 p k) * x2 (ix2 k q)) + (∑ k : Fin 512, x1 (ix2 p k) * x3 (ix2 k q))) + x4 (ix2 (0 : Fin 1) q))
          (Ideal.ofBits .f32 0x00000000#32) := by
  unfold k0_pay1
  rw [maximumf_apply, addf_apply, addf_apply, rootProduct_apply, stackProduct_apply, biasRows_apply]
  simp only [shapeCast_self, truncf_apply]
  rfl

end Cert.KernelIdeal.Region

end
-- ==== Proof.ValueI.lean ====
/-
  The result array of `KernelIdeal` after the run, as one function of the arrays the region finds.

  Point `t` writes back rows 4000·t … 4000·t + 3999: entry (p, q) of what it writes is the body's stored value of the
  blocks it staged, and row p of a row-blocked window is row 4000·t + p of its array while the three unblocked windows
  are their arrays whole. So what point `t` writes is block `t` of one whole-array function (`layer`): at (n, q),
      max ( Σ_k x[n,k]·Wroot[k,q]  +  Σ_k means[n,k]·Wstack[k,q]  +  bias[0,q] ,  0 ).
  The 25 blocks tile the 100000 rows (row n lies in block n / 4000), so the array ends holding that function.
-/
import proofs.«152529_j70617852281332_1_alg».proof.Proof.FrameI
import proofs.«152529_j70617852281332_1_alg».proof.Proof.PayI

set_option maxRecDepth 16384

noncomputable section

namespace Cert.KernelIdeal.Region

open Idealize.ShloMosaic Idealize.ShloMosaic.TcCoe Idealize.ShloMosaic.ValueIdx Idealize.SL.Sem
open Idealize.ShloMosaic.Pipeline (Dat)
open Cert.KernelIdeal Cert.KernelIdeal.Gen

/-- One entry of the layer over whole arrays: node `n`, output feature `q`. -/
def layerAt (X : S100000x64.Idx → EReal) (C : S100000x512.Idx → EReal) (Wr : S64x64.Idx → EReal) (Ws : S512x64.Idx → EReal)
    (B : S1x64.Idx → EReal) (n : Fin 100000) (q : Fin 64) : EReal :=
  max (((∑ k : Fin 64, X (ix2 n k) * Wr (ix2 k q)) + (∑ k : Fin 512, C (ix2 n k) * Ws (ix2 k q))) + B (ix2 (0 : Fin 1) q))
    (Ideal.ofBits .f32 0x00000000#32)

/-- The layer as an array. -/
def layer (X : S100000x64.Idx → EReal) (C : S100000x512.Idx → EReal) (Wr : S64x64.Idx → EReal) (Ws : S512x64.Idx → EReal)
    (B : S1x64.Idx → EReal) : S100000x64.Idx → EReal :=
  fun i => layerAt X C Wr Ws B (i 0) (i 1)

/-- The layer's entry depends on the node and the feature through their values. -/
theorem layerAt_congr (X : S100000x64.Idx → EReal) (C : S100000x512.Idx → EReal) (Wr : S64x64.Idx → EReal) (Ws : S512x64.Idx → EReal)
    (B : S1x64.Idx → EReal) {n n' : Fin 100000} {q q' : Fin 64} (hn : n.val = n'.val) (hq : q.val = q'.val) :
    layerAt X C Wr Ws B n q = layerAt X C Wr Ws B n' q' := by
  obtain rfl := Fin.ext hn
  obtain rfl := Fin.ext hq
  rfl

/-- The stored value of blocks that are rows of whole arrays is the layer's entry at the matching row. -/
theorem payload_is_layer (X : S100000x64.Idx → EReal) (C : S100000x512.Idx → EReal) (Wr : S64x64.Idx → EReal) (Ws : S512x64.Idx → EReal)
    (B : S1x64.Idx → EReal)
    (x0 : Vec Ideal S4000x64 .f32) (x1 : Vec Ideal S4000x512 .f32) (x2 : Vec Ideal S64x64 .f32)
    (x3 : Vec Ideal S512x64 .f32) (x4 : Vec Ideal S1x64 .f32) (p : Fin 4000) (q : Fin 64) (n : Fin 100000)
    (h0 : ∀ k : Fin 64, x0 (ix2 p k) = X (ix2 n k)) (h1 : ∀ k : Fin 512, x1 (ix2 p k) = C (ix2 n k))
    (h2 : ∀ k : Fin 64, x2 (ix2 k q) = Wr (ix2 k q)) (h3 : ∀ k : Fin 512, x3 (ix2 k q) = Ws (ix2 k q))
    (h4 : x4 (ix2 (0 : Fin 1) q) = B (ix2 (0 : Fin 1) q)) :
    k0_pay1 (F := Ideal) x0 x1 x2 x3 x4 (ix2 p q) = layerAt X C Wr Ws B n q := by
  rw [payload_apply]
  unfold layerAt
  simp only [h0, h1, h2, h3, h4]

theorem zero_offsets : (![0, 0] : Fin 2 → Nat) = fun _ => 0 := funext fun a => by fin_cases a <;> rfl

/-- The printed index maps, decided over the 25 points: the row-blocked windows sit at block row `t`, the others at the
    origin. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## One point's write-back, over any arrays -/

section AnyArrays

variable {c : Dev nD} (E : (b : Ref sig .tc) → Buf (Elt Ideal) ((c : Thread nD τ).loc b))

/-- Window `w`'s block at point `t` of the arrays `E`. -/
def blockOf (w : Fin cfg0.W) (t : Fin cfg0.N) : ((cfg0.win w).xblock (cfg0.grid.coords t)).Idx → Elt Ideal (cfg0.win w).elt :=
  ((cfg0.win w).blk t).view.read (Elt Ideal) (E (Pipeline.arrRef spec0 w))

/-- What the body leaves of the blocks of `E` at point `t`, read through the output window's block, is block `t` of the
    layer of `E`'s arrays. -/
theorem written_block (t : Fin cfg0.N) :
    (cfg0.win 5).cut (grid0.coords t) (resultBlock (blockOf E 0 t) (blockOf E 1 t) (blockOf E 2 t) (blockOf E 3 t) (blockOf E 4 t))
      = ((cfg0.win 5).blk t).view.read (Elt Ideal) (layer (E main_arg0) (E main_v147) (E main_arg4) (E main_v148) (E main_v149)) := by
  unfold resultBlock
  rw [View.canon_unit_zero zero_offsets]
  simp only [View.ld_unit_zero (S := S4000x64) zero_offsets, View.ld_unit_zero (S := S4000x512) zero_offsets,
    View.ld_unit_zero (S := S64x64) zero_offsets, View.ld_unit_zero (S := S512x64) zero_offsets,
    View.ld_unit_zero (S := S1x64) zero_offsets]
  obtain ⟨e00, e01, e10, e11, e20, e21, e30, e31, e40, e41, e50, e51⟩ := index_facts t
  have hN : cfg0.N = 25 := N_0
  have ht : t.val < 25 := hN ▸ t.isLt
  funext j
  obtain ⟨p, q, rfl⟩ : ∃ (p : Fin 4000) (q : Fin 64), j = ix2 p q := ⟨j 0, j 1, eq_ix2 j⟩
  have hp : p.val < 4000 := p.isLt
  have hq : q.val < 64 := q.isLt
  refine (payload_is_layer (E main_arg0) (E main_v147) (E main_arg4) (E main_v148) (E main_v149)
    (blockOf E 0 t) (blockOf E 1 t) (blockOf E 2 t) (blockOf E 3 t) (blockOf E 4 t) p q ⟨t.val * 4000 + p.val, by omega⟩
    ?_ ?_ ?_ ?_ ?_).trans ?_
  · intro k
    show E main_arg0 (((cfg0.win 0).blk t).view.emb (ix2 p k)) = E main_arg0 _
    refine congrArg _ (funext fun a => Fin.ext ?_)
    match a with
    | ⟨0, _⟩ => show win0_0.index t (0 : Fin 2) * 4000 + 1 * p.val = t.val * 4000 + p.val; omega
    | ⟨1, _⟩ => show win0_0.index t (1 : Fin 2) * 64 + 1 * k.val = k.val; omega
  · intro k
    show E main_v147 (((cfg0.win 1).blk t).view.emb (ix2 p k)) = E main_v147 _
    refine congrArg _ (funext fun a => Fin.ext ?_)
    match a with
    | ⟨0, _⟩ => show win0_1.index t (0 : Fin 2) * 4000 + 1 * p.val = t.val * 4000 + p.val; omega
    | ⟨1, _⟩ => show win0_1.index t (1 : Fin 2) * 512 + 1 * k.val = k.val; omega
  · intro k
    show E main_arg4 (((cfg0.win 2).blk t).view.emb (ix2 k q)) = E main_arg4 _
    refine congrArg _ (funext fun a => Fin.ext ?_)
    match a with
    | ⟨0, _⟩ => show win0_2.index t (0 : Fin 2) * 64 + 1 * k.val = k.val; omega
    | ⟨1, _⟩ => show win0_2.index t (1 : Fin 2) * 64 + 1 * q.val = q.val; omega
  · intro k
    show E main_v148 (((cfg0.win 3).blk t).view.emb (ix2 k q)) = E main_v148 _
    refine congrArg _ (funext fun a => Fin.ext ?_)
    match a with
    | ⟨0, _⟩ => show win0_3.index t (0 : Fin 2) * 512 + 1 * k.val = k.val; omega
    | ⟨1, _⟩ => show win0_3.index t (1 : Fin 2) * 64 + 1 * q.val = q.val; omega
  · show E main_v149 (((cfg0.win 4).blk t).view.emb (ix2 (0 : Fin 1) q)) = E main_v149 _
    refine congrArg _ (funext fun a => Fin.ext ?_)
    match a with
    | ⟨0, _⟩ => show win0_4.index t (0 : Fin 2) * 1 + 1 * 0 = 0; omega
    | ⟨1, _⟩ => show win0_4.index t (1 : Fin 2) * 64 + 1 * q.val = q.val; omega
  · show layerAt _ _ _ _ _ _ _ = layerAt _ _ _ _ _ ((((cfg0.win 5).blk t).view.emb (ix2 p q)) 0) ((((cfg0.win 5).blk t).view.emb (ix2 p q)) 1)
    exact layerAt_congr _ _ _ _ _
      (by show t.val * 4000 + p.val = win0_5.index t (0 : Fin 2) * 4000 + 1 * p.val; omega)
      (by show q.val = win0_5.index t (1 : Fin 2) * 64 + 1 * q.val; omega)

end AnyArrays

variable (m : (ℓ : Loc nD τ sig) → Buf (Elt Ideal) ℓ) (ρ : Dev nD → PrngReg)

/-- What point `t` writes back is block `t` of the layer of the arrays as the region finds them. -/
theorem flushed_eq (c : Dev nD) (t : Fin cfg0.N) :
    (dats m 0 c).flushed 5 t = ((cfg0.win 5).blk t).view.read (Elt Ideal)
      (layer (entry m c main_arg0) (entry m c main_v147) (entry m c main_arg4) (entry m c main_v148) (entry m c main_v149)) := by
  show (cfg0.win 5).cut (grid0.coords t) ((dats m 0 c).after 5 t) = _
  rw [after_5]
  exact written_block (entry m c) t

/-- An index of the result array is in point `t`'s block iff each coordinate is in the block's range on its axis. -/
theorem mem_block (t : Fin cfg0.N) (i : S100000x64.Idx) :
    i ∈ ((cfg0.win 5).blk t).view.set ↔ ∀ a : Fin 2, win0_5.index t a * S4000x64.size a ≤ (i a).val ∧ (i a).val < win0_5.index t a * S4000x64.size a + S4000x64.size a := by
  show i ∈ ((View.whole main_v150).slice (win0_5.rect t)).set ↔ _
  rw [View.set_slice_whole, Rect.mem_set_unit]
  exact Iff.rfl

/-- Every row of the result lies in some point's block: row `n` in block `n / 4000`. -/
theorem rows_covered (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 25 := N_0
  have hlt : (i 0).val / 4000 < cfg0.N := by rw [hN]; omega
  obtain ⟨-, -, -, -, -, -, -, -, -, -, e50, e51⟩ := index_facts ⟨(i 0).val / 4000, hlt⟩
  have e50' : win0_5.index ⟨(i 0).val / 4000, hlt⟩ (0 : Fin 2) = (i 0).val / 4000 := e50
  refine ⟨⟨(i 0).val / 4000, hlt⟩, flush0_5 _, ?_⟩
  rw [mem_block]
  intro a
  match a with
  | ⟨0, _⟩ =>
    show win0_5.index ⟨(i 0).val / 4000, hlt⟩ (0 : Fin 2) * 4000 ≤ (i 0).val ∧ (i 0).val < win0_5.index ⟨(i 0).val / 4000, hlt⟩ (0 : Fin 2) * 4000 + 4000
    rw [e50']; omega
  | ⟨1, _⟩ =>
    show win0_5.index ⟨(i 0).val / 4000, hlt⟩ (1 : Fin 2) * 64 ≤ (i 1).val ∧ (i 1).val < win0_5.index ⟨(i 0).val / 4000, hlt⟩ (1 : Fin 2) * 64 + 64
    rw [e51]; omega

/-- The result array after the run is the layer of the arrays as the region finds them. -/
theorem result_is_layer (c : Dev nD) : (dats m 0 c).arrAt 5 cfg0.N
    = layer (entry m c main_arg0) (entry m c main_v147) (entry m c main_arg4) (entry m c main_v148) (entry m c main_v149) :=
  (dats m 0 c).arrAt_eq_of_cover 5 _ (fun t _ => flushed_eq m c t) rows_covered

end Cert.KernelIdeal.Region

end
-- ==== Proof.BridgeI.lean ====
/-
  The layer the kernel computes is the reference's result, entry by entry, on the extended reals.

  At node n and output feature q the kernel holds
      max ( Σ_k x[n,k]·Wroot[k,q]  +  Σ_{k<512} means[n,k]·Wstack[k,q]  +  bias[q] ,  0 )
  where column 64·r + d of the stacked means is relation r's mean at column d and row 64·r + d of the stacked weights is
  W[r, d, ·]; so the middle sum, cut into its eight runs of 64, is  Σ_r Σ_d mean_r[n,d]·W[r,d,q].  The reference holds
      max ( (((x·Wroot)[n,q] + bias[q]) + (mean_0·W[0])[n,q]) + … + (mean_7·W[7])[n,q] ,  0 ).
  The two differ by the grouping and order of one finite sum of extended reals, where addition is associative and
  commutative (no distributivity, no cancellation: finiteness of the inputs is not used).
-/
import proofs.«152529_j70617852281332_1_alg».proof.Proof.StackI
import proofs.«152529_j70617852281332_1_alg».proof.Proof.ValueI

set_option maxRecDepth 16384

noncomputable section

namespace Cert.KernelIdeal.Region

open Idealize.ShloMosaic Idealize.ShloMosaic.ValueIdx
open Cert.KernelIdeal Cert.KernelIdeal.Gen
open Cert.ReferenceIdeal.Read

/-- A sum over 512 consecutive indices is the sum of its eight runs of 64. -/
theorem sum_eight_runs (f : Fin 512 → EReal) :
    ∑ k : Fin 512, f k = ∑ r : Fin 8, ∑ d : Fin 64, f ⟨64 * r.val + d.val, by have := r.isLt; have := d.isLt; omega⟩ := by
  rw [← Equiv.sum_comp (finProdFinEquiv : Fin 8 × Fin 64 ≃ Fin (8 * 64)) f, Fintype.sum_prod_type]
  refine Finset.sum_congr rfl fun r _ => Finset.sum_congr rfl fun d _ => congrArg f (Fin.ext ?_)
  show d.val + 64 * r.val = 64 * r.val + d.val
  omega

/-- A root term, eight relation terms and a bias added in the kernel's grouping and in the reference's. -/
theorem regroup {M : Type} [AddCommMonoid M] (a b t0 t1 t2 t3 t4 t5 t6 t7 : M) :
    (a + (t0 + t1 + t2 + t3 + t4 + t5 + t6 + t7)) + b = a + b + t0 + t1 + t2 + t3 + t4 + t5 + t6 + t7 := by
  abel

variable (x0 : S100000x64.Idx → EReal) (x1 : S2x1600000.Idx → BitVec 32) (x2 : S1600000.Idx → BitVec 32)
  (x3 : S8x64x64.Idx → EReal) (x4 : S64x64.Idx → EReal) (x5 : S64.Idx → EReal)

/-! ## The kernel's side -/

/-- Column `64·r + d` of the stacked means is relation `r`'s column `d`. -/
theorem stackedMeans_at (n : Fin 100000) (r : Fin 8) (d : Fin 64) :
    stackedMeans x0 x1 x2 (ix2 n (⟨64 * r.val + d.val, by have := r.isLt; have := d.isLt; omega⟩ : Fin 512)) = relMean x0 x1 x2 r (ix2 n d) := by
  have hr := r.isLt
  have hd := d.isLt
  unfold stackedMeans
  exact concatenate_ofFn_apply (t := S100000x512) (s₁ := S100000x64) (1 : Fin 2) (relMean x0 x1 x2) _ rfl 64 rfl _ r
    (by show (64 * r.val + d.val) / 64 = r.val; omega) (ix2 n d)
    (by show d.val = (64 * r.val + d.val) % 64; omega)
    (fun b hb => by
      match b with
      | ⟨0, _⟩ => rfl
      | ⟨1, _⟩ => exact absurd rfl hb)

/-- Row `64·r + d` of the stacked weights is `W[r, d, ·]`. -/
theorem stackedWeights_at (r : Fin 8) (d : Fin 64) (q : Fin 64) :
    shapeCast S512x64 x3 Facts₀.shapeCasts_S8x64x64_S512x64 (ix2 (⟨64 * r.val + d.val, by have := r.isLt; have := d.isLt; omega⟩ : Fin 512) q) = x3 (ix3 r d q) :=
  shapeCast_apply x3 _ _ (ix3 r d q) (by
    rewrite [Shape.rowMajor_val_three, Shape.rowMajor_val_two]
    show (r.val * 64 + d.val) * 64 + q.val = (64 * r.val + d.val) * 64 + q.val
    omega)

/-- The bias row's entry `q` is the bias's. -/
theorem biasRow_at (q : Fin 64) :
    shapeCast S1x64 x5 Facts₀.shapeCasts_S64_S1x64 (ix2 (0 : Fin 1) q) = x5 (ix1 q) :=
  shapeCast_apply x5 _ _ (ix1 q) (by
    rewrite [Shape.rowMajor_val_one, Shape.rowMajor_val_two]
    show q.val = 0 * 64 + q.val
    omega)

/-- The root term: row `n` of the features against column `q` of the root weights. -/
def rootTerm (n : Fin 100000) (q : Fin 64) : EReal := ∑ k : Fin 64, x0 (ix2 n k) * x4 (ix2 k q)

/-- Relation `r`'s term: row `n` of its mean against column `q` of its weights. -/
def relTerm (r : Fin 8) (n : Fin 100000) (q : Fin 64) : EReal := ∑ d : Fin 64, relMean x0 x1 x2 r (ix2 n d) * x3 (ix3 r d q)

/-- The kernel's entry: root term, the eight relation terms, the bias, clamped below at zero. -/
theorem layer_entry (n : Fin 100000) (q : Fin 64) :
    layerAt x0 (stackedMeans x0 x1 x2) x4 (shapeCast S512x64 x3 Facts₀.shapeCasts_S8x64x64_S512x64)
        (shapeCast S1x64 x5 Facts₀.shapeCasts_S64_S1x64) n q
      = max ((rootTerm x0 x4 n q + (relTerm x0 x1 x2 x3 0 n q + relTerm x0 x1 x2 x3 1 n q + relTerm x0 x1 x2 x3 2 n q
          + relTerm x0 x1 x2 x3 3 n q + relTerm x0 x1 x2 x3 4 n q + relTerm x0 x1 x2 x3 5 n q + relTerm x0 x1 x2 x3 6 n q
          + relTerm x0 x1 x2 x3 7 n q)) + x5 (ix1 q)) (Ideal.ofBits .f32 0x00000000#32) := by
  unfold layerAt
  rw [sum_eight_runs, biasRow_at]
  simp only [stackedMeans_at, stackedWeights_at]
  rw [Fin.sum_univ_eight]
  rfl

/-! ## The reference's side -/

/-- The reference's first product at (n, q) is the root term. -/
theorem reference_root (n : Fin 100000) (q : Fin 64) :
    val_main_v11 (F := Ideal) x0 x4 (ix2 n q) = rootTerm x0 x4 n q := by
  rw [val_main_v11_apply]
  unfold rootTerm
  refine Finset.sum_congr rfl fun k _ => ?_
  have el : lidx_main_v11 (ix2 n q) k = ix2 n k := funext fun a => by
    match a with
    | ⟨0, _⟩ => rfl
    | ⟨1, _⟩ => rfl
  have er : ridx_main_v11 (ix2 n q) k = ix2 k q := funext fun a => by
    match a with
    | ⟨0, _⟩ => rfl
    | ⟨1, _⟩ => rfl
  rw [el, er]

/-- The reference's broadcast bias at (n, q) is the bias's entry `q`. -/
theorem reference_bias (n : Fin 100000) (q : Fin 64) :
    val_main_v13 (F := Ideal) x5 (ix2 n q) = x5 (ix1 q) := by
  rw [val_main_v13_apply, val_main_v12_apply]
  refine congrArg x5 (funext fun a => ?_)
  match a with
  | ⟨0, _⟩ => rfl

/-- The reference's product for relation 0 at (n, q) is that relation's term. -/
theorem reference_rel0 (n : Fin 100000) (q : Fin 64) :
    val_main_v34 (F := Ideal) x0 x1 x2 x3 (ix2 n q) = relTerm x0 x1 x2 x3 0 n q := by
  rw [val_main_v34_apply]
  unfold relTerm
  refine Finset.sum_congr rfl fun d _ => ?_
  have hd := d.isLt
  have hq := q.isLt
  have el : lidx_main_v34 (ix2 n q) d = ix2 n d := funext fun a => by
    match a with
    | ⟨0, _⟩ => rfl
    | ⟨1, _⟩ => rfl
  have ew : val_main_v33 (F := Ideal) x3 (ridx_main_v34 (ix2 n q) d) = x3 (ix3 (0 : Fin 8) d q) := by
    rw [val_main_v33_apply, val_main_v32_apply]
    refine congrArg x3 (funext fun a => Fin.ext ?_)
    match a with
    | ⟨0, _⟩ => rfl
    | ⟨1, _⟩ => show (d.val * 64 + q.val) / 64 % 64 = d.val; omega
    | ⟨2, _⟩ => show (d.val * 64 + q.val) % 64 = q.val; omega
  rw [el, ew]
  rfl

/-- The reference's product for relation 1 at (n, q) is that relation's term. -/
theorem reference_rel1 (n : Fin 100000) (q : Fin 64) :
    val_main_v55 (F := Ideal) x0 x1 x2 x3 (ix2 n q) = relTerm x0 x1 x2 x3 1 n q := by
  rw [val_main_v55_apply]
  unfold relTerm
  refine Finset.sum_congr rfl fun d _ => ?_
  have hd := d.isLt
  have hq := q.isLt
  have el : lidx_main_v55 (ix2 n q) d = ix2 n d := funext fun a => by
    match a with
    | ⟨0, _⟩ => rfl
    | ⟨1, _⟩ => rfl
  have ew : val_main_v54 (F := Ideal) x3 (ridx_main_v55 (ix2 n q) d) = x3 (ix3 (1 : Fin 8) d q) := by
    rw [val_main_v54_apply, val_main_v53_apply]
    refine congrArg x3 (funext fun a => Fin.ext ?_)
    match a with
    | ⟨0, _⟩ => rfl
    | ⟨1, _⟩ => show (d.val * 64 + q.val) / 64 % 64 = d.val; omega
    | ⟨2, _⟩ => show (d.val * 64 + q.val) % 64 = q.val; omega
  rw [el, ew]
  rfl

/-- The reference's product for relation 2 at (n, q) is that relation's term. -/
theorem reference_rel2 (n : Fin 100000) (q : Fin 64) :
    val_main_v76 (F := Ideal) x0 x1 x2 x3 (ix2 n q) = relTerm x0 x1 x2 x3 2 n q := by
  rw [val_main_v76_apply]
  unfold relTerm
  refine Finset.sum_congr rfl fun d _ => ?_
  have hd := d.isLt
  have hq := q.isLt
  have el : lidx_main_v76 (ix2 n q) d = ix2 n d := funext fun a => by
    match a with
    | ⟨0, _⟩ => rfl
    | ⟨1, _⟩ => rfl
  have ew : val_main_v75 (F := Ideal) x3 (ridx_main_v76 (ix2 n q) d) = x3 (ix3 (2 : Fin 8) d q) := by
    rw [val_main_v75_apply, val_main_v74_apply]
    refine congrArg x3 (funext fun a => Fin.ext ?_)
    match a with
    | ⟨0, _⟩ => rfl
    | ⟨1, _⟩ => show (d.val * 64 + q.val) / 64 % 64 = d.val; omega
    | ⟨2, _⟩ => show (d.val * 64 + q.val) % 64 = q.val; omega
  rw [el, ew]
  rfl

/-- The reference's product for relation 3 at (n, q) is that relation's term. -/
theorem reference_rel3 (n : Fin 100000) (q : Fin 64) :
    val_main_v97 (F := Ideal) x0 x1 x2 x3 (ix2 n q) = relTerm x0 x1 x2 x3 3 n q := by
  rw [val_main_v97_apply]
  unfold relTerm
  refine Finset.sum_congr rfl fun d _ => ?_
  have hd := d.isLt
  have hq := q.isLt
  have el : lidx_main_v97 (ix2 n q) d = ix2 n d := funext fun a => by
    match a with
    | ⟨0, _⟩ => rfl
    | ⟨1, _⟩ => rfl
  have ew : val_main_v96 (F := Ideal) x3 (ridx_main_v97 (ix2 n q) d) = x3 (ix3 (3 : Fin 8) d q) := by
    rw [val_main_v96_apply, val_main_v95_apply]
    refine congrArg x3 (funext fun a => Fin.ext ?_)
    match a with
    | ⟨0, _⟩ => rfl
    | ⟨1, _⟩ => show (d.val * 64 + q.val) / 64 % 64 = d.val; omega
    | ⟨2, _⟩ => show (d.val * 64 + q.val) % 64 = q.val; omega
  rw [el, ew]
  rfl

/-- The reference's product for relation 4 at (n, q) is that relation's term. -/
theorem reference_rel4 (n : Fin 100000) (q : Fin 64) :
    val_main_v118 (F := Ideal) x0 x1 x2 x3 (ix2 n q) = relTerm x0 x1 x2 x3 4 n q := by
  rw [val_main_v118_apply]
  unfold relTerm
  refine Finset.sum_congr rfl fun d _ => ?_
  have hd := d.isLt
  have hq := q.isLt
  have el : lidx_main_v118 (ix2 n q) d = ix2 n d := funext fun a => by
    match a with
    | ⟨0, _⟩ => rfl
    | ⟨1, _⟩ => rfl
  have ew : val_main_v117 (F := Ideal) x3 (ridx_main_v118 (ix2 n q) d) = x3 (ix3 (4 : Fin 8) d q) := by
    rw [val_main_v117_apply, val_main_v116_apply]
    refine congrArg x3 (funext fun a => Fin.ext ?_)
    match a with
    | ⟨0, _⟩ => rfl
    | ⟨1, _⟩ => show (d.val * 64 + q.val) / 64 % 64 = d.val; omega
    | ⟨2, _⟩ => show (d.val * 64 + q.val) % 64 = q.val; omega
  rw [el, ew]
  rfl

/-- The reference's product for relation 5 at (n, q) is that relation's term. -/
theorem reference_rel5 (n : Fin 100000) (q : Fin 64) :
    val_main_v139 (F := Ideal) x0 x1 x2 x3 (ix2 n q) = relTerm x0 x1 x2 x3 5 n q := by
  rw [val_main_v139_apply]
  unfold relTerm
  refine Finset.sum_congr rfl fun d _ => ?_
  have hd := d.isLt
  have hq := q.isLt
  have el : lidx_main_v139 (ix2 n q) d = ix2 n d := funext fun a => by
    match a with
    | ⟨0, _⟩ => rfl
    | ⟨1, _⟩ => rfl
  have ew : val_main_v138 (F := Ideal) x3 (ridx_main_v139 (ix2 n q) d) = x3 (ix3 (5 : Fin 8) d q) := by
    rw [val_main_v138_apply, val_main_v137_apply]
    refine congrArg x3 (funext fun a => Fin.ext ?_)
    match a with
    | ⟨0, _⟩ => rfl
    | ⟨1, _⟩ => show (d.val * 64 + q.val) / 64 % 64 = d.val; omega
    | ⟨2, _⟩ => show (d.val * 64 + q.val) % 64 = q.val; omega
  rw [el, ew]
  rfl

/-- The reference's product for relation 6 at (n, q) is that relation's term. -/
theorem reference_rel6 (n : Fin 100000) (q : Fin 64) :
    val_main_v160 (F := Ideal) x0 x1 x2 x3 (ix2 n q) = relTerm x0 x1 x2 x3 6 n q := by
  rw [val_main_v160_apply]
  unfold relTerm
  refine Finset.sum_congr rfl fun d _ => ?_
  have hd := d.isLt
  have hq := q.isLt
  have el : lidx_main_v160 (ix2 n q) d = ix2 n d := funext fun a => by
    match a with
    | ⟨0, _⟩ => rfl
    | ⟨1, _⟩ => rfl
  have ew : val_main_v159 (F := Ideal) x3 (ridx_main_v160 (ix2 n q) d) = x3 (ix3 (6 : Fin 8) d q) := by
    rw [val_main_v159_apply, val_main_v158_apply]
    refine congrArg x3 (funext fun a => Fin.ext ?_)
    match a with
    | ⟨0, _⟩ => rfl
    | ⟨1, _⟩ => show (d.val * 64 + q.val) / 64 % 64 = d.val; omega
    | ⟨2, _⟩ => show (d.val * 64 + q.val) % 64 = q.val; omega
  rw [el, ew]
  rfl

/-- The reference's product for relation 7 at (n, q) is that relation's term. -/
theorem reference_rel7 (n : Fin 100000) (q : Fin 64) :
    val_main_v181 (F := Ideal) x0 x1 x2 x3 (ix2 n q) = relTerm x0 x1 x2 x3 7 n q := by
  rw [val_main_v181_apply]
  unfold relTerm
  refine Finset.sum_congr rfl fun d _ => ?_
  have hd := d.isLt
  have hq := q.isLt
  have el : lidx_main_v181 (ix2 n q) d = ix2 n d := funext fun a => by
    match a with
    | ⟨0, _⟩ => rfl
    | ⟨1, _⟩ => rfl
  have ew : val_main_v180 (F := Ideal) x3 (ridx_main_v181 (ix2 n q) d) = x3 (ix3 (7 : Fin 8) d q) := by
    rw [val_main_v180_apply, val_main_v179_apply]
    refine congrArg x3 (funext fun a => Fin.ext ?_)
    match a with
    | ⟨0, _⟩ => rfl
    | ⟨1, _⟩ => show (d.val * 64 + q.val) / 64 % 64 = d.val; omega
    | ⟨2, _⟩ => show (d.val * 64 + q.val) % 64 = q.val; omega
  rw [el, ew]
  rfl

/-- The reference's entry: root term plus bias, then the eight relation terms added in turn, clamped below at zero. -/
theorem reference_entry (n : Fin 100000) (q : Fin 64) :
    val_main_v183 (F := Ideal) x0 x1 x2 x3 x4 x5 (ix2 n q)
      = max (rootTerm x0 x4 n q + x5 (ix1 q) + relTerm x0 x1 x2 x3 0 n q + relTerm x0 x1 x2 x3 1 n q + relTerm x0 x1 x2 x3 2 n q
          + relTerm x0 x1 x2 x3 3 n q + relTerm x0 x1 x2 x3 4 n q + relTerm x0 x1 x2 x3 5 n q + relTerm x0 x1 x2 x3 6 n q
          + relTerm x0 x1 x2 x3 7 n q) (Ideal.ofBits .f32 0x00000000#32) := by
  rw [val_main_v183_apply, val_main_v182_apply, val_main_v161_apply, val_main_v140_apply, val_main_v119_apply, val_main_v98_apply, val_main_v77_apply, val_main_v56_apply, val_main_v35_apply, val_main_v14_apply,
    reference_root, reference_bias, reference_rel0, reference_rel1, reference_rel2, reference_rel3, reference_rel4, reference_rel5, reference_rel6, reference_rel7]
  rfl

/-! ## The two sides are one function -/

/-- The layer of the arrays the region finds is the reference's result of the arguments. -/
theorem layer_is_reference :
    layer x0 (stackedMeans x0 x1 x2) x4 (shapeCast S512x64 x3 Facts₀.shapeCasts_S8x64x64_S512x64)
        (shapeCast S1x64 x5 Facts₀.shapeCasts_S64_S1x64)
      = val_main_v183 (F := Ideal) x0 x1 x2 x3 x4 x5 := by
  funext i
  obtain ⟨n, q, rfl⟩ : ∃ (n : Fin 100000) (q : Fin 64), i = ix2 n q := ⟨i 0, i 1, eq_ix2 i⟩
  show layerAt _ _ _ _ _ n q = _
  rw [layer_entry, reference_entry]
  refine congrArg (max · _) ?_
  exact regroup _ _ _ _ _ _ _ _ _ _

end Cert.KernelIdeal.Region

end
-- ==== Proof.RunI.lean ====
/-
  The run of `KernelIdeal`'s @main with its result array named: the reference's result of the argument arrays.

  The frame run leaves the result array at what the 25 write-backs compose to, the layer of the arrays the region found;
  those arrays are the arguments, the stacked means and the two reshapes; and that layer is the reference's result.
-/
import proofs.«152529_j70617852281332_1_alg».proof.Proof.BridgeI

set_option maxRecDepth 16384

noncomputable section

namespace Cert.KernelIdeal.Region

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The reference's result of core `c`'s argument arrays. -/
def referenceOf (c : Dev nD) : S100000x64.Idx → EReal :=
  Cert.ReferenceIdeal.Read.val_main_v183 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The result array after the run is the reference's result of the arguments. -/
theorem result_is_reference (c : Dev nD) : (dats m 0 c).arrAt 5 cfg0.N = referenceOf m c := by
  rw [result_is_layer, entry_arg0, entry_stackedMeans, entry_arg4, entry_stackedWeights, entry_biasRow]
  exact layer_is_reference _ _ _ _ _ _

/-- Every weakly fair execution of @main terminates with the result array at the reference's result of the arguments
    and the arguments unchanged. -/
theorem value_run : θ_run defs (onTc (τ := τ) (main (F := Ideal))) ⟨m, fun _ => 0, ρ⟩ (fun r => ∀ c : Dev nD,
      r.2.mem ((c.tc : Thread nD τ).loc main_v150) = referenceOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 5).trans (result_is_reference m c),
     ((h c).1 0).trans (((dats m 0 c).arrAt_in 0 rfl _).trans ((arrays_at_entry m c 0).trans (entry_arg0 m c))),
     ((h c).2 main_arg1 (Pipeline.mem_restRefs_of main_arg1 (by decide) (by decide))).trans (entry_arg1 m c),
     ((h c).2 main_arg2 (Pipeline.mem_restRefs_of main_arg2 (by decide) (by decide))).trans (entry_arg2 m c),
     ((h c).2 main_arg3 (Pipeline.mem_restRefs_of main_arg3 (by decide) (by decide))).trans (entry_arg3 m c),
     ((h c).1 2).trans (((dats m 0 c).arrAt_in 2 rfl _).trans ((arrays_at_entry m c 2).trans (entry_arg4 m c))),
     ((h c).2 main_arg5 (Pipeline.mem_restRefs_of main_arg5 (by decide) (by decide))).trans (entry_arg5 m c)⟩) (run_main m ρ)

end Cert.KernelIdeal.Region

end
-- ==== Proof.lean ====
/-
  A relational graph convolution layer — per-relation mean of the neighbours' features, one weight matrix per relation,
  a root transform, a bias, a clamp at zero — computed two ways.

  The kernel lets the host build the eight per-relation means (gather the sources' rows, mask by relation, scatter-add
  into the targets' rows, divide by the clamped count), lays them side by side as one [100000, 512] array, and runs one
  region over 25 row blocks: each point multiplies its [4000, 64] block of features by the root weights and its
  [4000, 512] block of stacked means by the eight weight matrices stacked as one [512, 64] matrix, adds the two products
  and the bias row, and clamps at zero. The reference builds the same eight means by the same operations, multiplies
  each by its own [64, 64] weight matrix, and adds the products one after the other onto the root product plus bias.

  On the extended reals the two agree entry by entry: the product with the stacked weights is the sum of the eight
  per-relation products (a sum over 512 indices cut into eight runs of 64), and what is left is a reordering of a finite
  sum. No law that fails at infinities is used, so the finiteness precondition is never opened.

  The three frames: both kernel programs by the library's frame run over the region's body (the same text at the
  word-level instance and at the ideal one), the reference by its generated run. The ideal pass rewrote nothing, so
  `preserves` is trivial.
-/
import proofs.«152529_j70617852281332_1_alg».proof.Defs
import proofs.«152529_j70617852281332_1_alg».proof.Proof.Gen.Kernel
import proofs.«152529_j70617852281332_1_alg».proof.Proof.Gen.KernelIdeal
import proofs.«152529_j70617852281332_1_alg».proof.Proof.Gen.ReferenceIdeal
import proofs.«152529_j70617852281332_1_alg».proof.Proof.Gen.ReferenceIdeal.Run
import proofs.«152529_j70617852281332_1_alg».proof.Proof.Gen.ReferenceIdeal.Read
import proofs.«152529_j70617852281332_1_alg».proof.Proof.Gen.Pre_finite_inputs
import proofs.«152529_j70617852281332_1_alg».proof.Proof.FrameK
import proofs.«152529_j70617852281332_1_alg».proof.Proof.RunI
import Idealize.ShloMosaic.Adequacy
import Idealize.ShloMosaic.Init

noncomputable section

namespace Cert.Proof

open Idealize.ShloMosaic Idealize.SL.Sem

/-- The word-level kernel runs to the end and leaves its arguments. -/
theorem frame_kernel : Cert.frame_Kernel := fun m ρ _ => Cert.Kernel.Region.frame m ρ

/-- So does its reading at the ideal instance. -/
theorem frame_ideal : Cert.frame_KernelIdeal := fun m ρ _ => Cert.KernelIdeal.Region.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the reference's result of those arguments. -/
theorem algebraic : Cert.algebraic_KernelIdeal_ReferenceIdeal := by
  intro m ρ m' ρ' _ hagree
  refine ⟨fun c => Cert.KernelIdeal.Region.referenceOf m c, Cert.KernelIdeal.Region.value_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v183_eq, a0, a1, a2, a3, a4, a5]
  rfl

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
